-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x3072 : Shape := ⟨2, ![2048, 3072]⟩
abbrev S2048 : Shape := ⟨1, ![2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x3072 : S_.BroadcastsInDim S2048x3072 (![] : Fin 0 → Fin S2048x3072.rank)
  reducesTo_S2048x3072_S_d0_1 : S2048x3072.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x3072 .f32) (main_arg8 : FVec F S2048 .f32) (main_arg9 : FVec F S2048x3072 .f32) (main_arg10 : FVec F S2048 .f32) (main_v33 : IVec S_ 1) : IVec S_ 1 :=
  let main_v34 : FVec F S2048x3072 .f32 := Host.absf main_arg7
  let main_cst_12 : FVec F S_ .f32 := constant S_ .f32 0x7F800000#32
  let main_v35 : FVec F S2048x3072 .f32 := broadcastInDim S2048x3072 ![] bcast_S_S2048x3072 main_cst_12
  let main_v36 : IVec S2048x3072 1 := cmpf .olt main_v34 main_v35
  let main_c_13 : IVec S_ 1 := constantI S_ 1 1#1
  let main_v37 : IVec S_ 1 := (fun x v => Host.reduce IntOp.andi x v reducesTo_S2048x3072_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x3072 .f32 := Host.absf main_arg9
  let main_cst_16 : FVec F S_ .f32 := constant S_ .f32 0x7F800000#32
  let main_v45 : FVec F S2048x3072 .f32 := broadcastInDim S2048x3072 ![] bcast_S_S2048x3072 main_cst_16
  let main_v46 : IVec S2048x3072 1 := cmpf .olt main_v44 main_v45
  let main_c_17 : IVec S_ 1 := constantI S_ 1 1#1
  let main_v47 : IVec S_ 1 := (fun x v => Host.reduce IntOp.andi x v reducesTo_S2048x3072_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x3072 .f32) (main_arg6 : FVec F S2048 .f32) (main_arg7 : FVec F S2048x3072 .f32) (main_arg8 : FVec F S2048 .f32) (main_arg9 : FVec F S2048x3072 .f32) (main_arg10 : FVec F S2048 .f32) (main_v13 : IVec S_ 1) (main_v16 : IVec S2048x3072 1) : IVec S_ 1 :=
  let main_c_5 : IVec S_ 1 := constantI S_ 1 1#1
  let main_v17 : IVec S_ 1 := (fun x v => Host.reduce IntOp.andi x v reducesTo_S2048x3072_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x3072 .f32 := Host.absf main_arg5
  let main_cst_8 : FVec F S_ .f32 := constant S_ .f32 0x7F800000#32
  let main_v25 : FVec F S2048x3072 .f32 := broadcastInDim S2048x3072 ![] bcast_S_S2048x3072 main_cst_8
  let main_v26 : IVec S2048x3072 1 := cmpf .olt main_v24 main_v25
  let main_c_9 : IVec S_ 1 := constantI S_ 1 1#1
  let main_v27 : IVec S_ 1 := (fun x v => Host.reduce IntOp.andi x v reducesTo_S2048x3072_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x2048 .f32) (main_arg2 : FVec F S4096x2048 .f32) (main_arg3 : FVec F S2048x3072 .f32) (main_arg4 : FVec F S2048 .f32) (main_arg5 : FVec F S2048x3072 .f32) (main_arg6 : FVec F S2048 .f32) (main_arg7 : FVec F S2048x3072 .f32) (main_arg8 : FVec F S2048 .f32) (main_arg9 : FVec F S2048x3072 .f32) (main_arg10 : FVec F S2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x3072 .f32 := Host.absf main_arg3
  let main_cst_4 : FVec F S_ .f32 := constant S_ .f32 0x7F800000#32
  let main_v15 : FVec F S2048x3072 .f32 := broadcastInDim S2048x3072 ![] bcast_S_S2048x3072 main_cst_4
  let main_v16 : IVec S2048x3072 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S4096x2048 : Shape := ⟨2, ![4096, 2048]⟩
abbrev S2048x3072 : Shape := ⟨2, ![2048, 3072]⟩
abbrev S2048 : Shape := ⟨1, ![2048]⟩
abbrev S4096x3072 : Shape := ⟨2, ![4096, 3072]⟩
abbrev S1x2048 : Shape := ⟨2, ![1, 2048]⟩
abbrev S1024x1024 : Shape := ⟨2, ![1024, 1024]⟩
abbrev S256x1024 : Shape := ⟨2, ![256, 1024]⟩
abbrev S1x256 : Shape := ⟨2, ![1, 256]⟩
abbrev S1024x256 : Shape := ⟨2, ![1024, 256]⟩

abbrev nBuf : Space → Nat
  | .hbm => 24
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S2048x3072, .f32⟩
  | .hbm, ⟨4, _⟩ => ⟨S2048, .f32⟩
  | .hbm, ⟨5, _⟩ => ⟨S2048x3072, .f32⟩
  | .hbm, ⟨6, _⟩ => ⟨S2048, .f32⟩
  | .hbm, ⟨7, _⟩ => ⟨S2048x3072, .f32⟩
  | .hbm, ⟨8, _⟩ => ⟨S2048, .f32⟩
  | .hbm, ⟨9, _⟩ => ⟨S2048x3072, .f32⟩
  | .hbm, ⟨10, _⟩ => ⟨S2048, .f32⟩
  | .hbm, ⟨11, _⟩ => ⟨S4096x1024, .bf16⟩
  | .hbm, ⟨12, _⟩ => ⟨S4096x2048, .bf16⟩
  | .hbm, ⟨13, _⟩ => ⟨S4096x3072, .bf16⟩
  | .hbm, ⟨14, _⟩ => ⟨S2048x3072, .bf16⟩
  | .hbm, ⟨15, _⟩ => ⟨S2048x3072, .bf16⟩
  | .hbm, ⟨16, _⟩ => ⟨S2048x3072, .bf16⟩
  | .hbm, ⟨17, _⟩ => ⟨S2048x3072, .bf16⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 8, 3], ![false, false, false]⟩

def k0_cond2 (i : grid0.Coords) : BitVec 1 :=
  let arg2 : BitVec 32 := BitVec.ofNat 32 (i 2).val
  let c2_i32 : BitVec 32 := 2#32
  let v37 : BitVec 1 := Scalar.cmpi .eq arg2 c2_i32
  let v38 : BitVec 32 := Scalar.extui v37
  let c0_i32_29 : BitVec 32 := 0#32
  let v39 : BitVec 1 := Scalar.cmpi .ne v38 c0_i32_29
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

class Facts₀ : Prop where
  bitsLt_bf16_f32 : FTy.bits .bf16 < FTy.bits .f32
  concatenates_S4096x1024_S4096x2048_S4096x3072_d1 : Shape.Concatenates [S4096x1024, S4096x2048] S4096x3072 1
  shapeCasts_S2048_S1x2048 : S2048.ShapeCasts S1x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x1024_S256x1024_S1024x256_1_1_0_0_n_n_wf : DotDims.WF S1024x1024 S256x1024 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x3072.size a
  hwx0_0 : ∀ i : grid0.Coords, EltTy.bits .bf16 = 32 ∨ (Rect.block (s := S4096x3072) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S2048x3072.size a
  hwx0_1 : ∀ i : grid0.Coords, EltTy.bits .bf16 = 32 ∨ (Rect.block (s := S2048x3072) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x3072.size a
  hwx0_2 : ∀ i : grid0.Coords, EltTy.bits .bf16 = 32 ∨ (Rect.block (s := S2048x3072) S256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x3072.size a
  hwx0_3 : ∀ i : grid0.Coords, EltTy.bits .bf16 = 32 ∨ (Rect.block (s := S2048x3072) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x3072.size a
  hwx0_4 : ∀ i : grid0.Coords, EltTy.bits .bf16 = 32 ∨ (Rect.block (s := S2048x3072) S256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S4096x2048.size a
  hwx0_9 : ∀ i : grid0.Coords, EltTy.bits .f32 = 32 ∨ (Rect.block (s := S4096x2048) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S4096x2048.size a
  hwx0_10 : ∀ i : grid0.Coords, EltTy.bits .f32 = 32 ∨ (Rect.block (s := S4096x2048) S1024x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S4096x2048.size a
  hwx0_11 : ∀ i : grid0.Coords, EltTy.bits .f32 = 32 ∨ (Rect.block (s := S4096x2048) S1024x256.size (cc0_transform_11 i) (hinb0_11 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S1024x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11_0) S1024x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11_1) S1024x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x3072 : Shape := ⟨2, ![2048, 3072]⟩
abbrev S2048 : Shape := ⟨1, ![2048]⟩
abbrev S4096x3072 : Shape := ⟨2, ![4096, 3072]⟩
abbrev S8192x3072 : Shape := ⟨2, ![8192, 3072]⟩
abbrev S8192 : Shape := ⟨1, ![8192]⟩
abbrev S3072x8192 : Shape := ⟨2, ![3072, 8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S2048x3072, .f32⟩
  | .hbm, ⟨4, _⟩ => ⟨S2048, .f32⟩
  | .hbm, ⟨5, _⟩ => ⟨S2048x3072, .f32⟩
  | .hbm, ⟨6, _⟩ => ⟨S2048, .f32⟩
  | .hbm, ⟨7, _⟩ => ⟨S2048x3072, .f32⟩
  | .hbm, ⟨8, _⟩ => ⟨S2048, .f32⟩
  | .hbm, ⟨9, _⟩ => ⟨S2048x3072, .f32⟩
  | .hbm, ⟨10, _⟩ => ⟨S2048, .f32⟩
  | .hbm, ⟨11, _⟩ => ⟨S4096x3072, .f32⟩
  | .hbm, ⟨12, _⟩ => ⟨S8192x3072, .f32⟩
  | .hbm, ⟨13, _⟩ => ⟨S8192, .f32⟩
  | .hbm, ⟨14, _⟩ => ⟨S3072x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x1024_S4096x2048_S4096x3072_d1 : Shape.Concatenates [S4096x1024, S4096x2048] S4096x3072 1
  concatenates_S2048x3072_S2048x3072_S2048x3072_S2048x3072_S8192x3072_d0 : Shape.Concatenates [S2048x3072, S2048x3072, S2048x3072, S2048x3072] S8192x3072 0
  concatenates_S2048_S2048_S2048_S2048_S8192_d0 : Shape.Concatenates [S2048, S2048, S2048, S2048] S8192 0
  transposes_S8192x3072_S3072x8192_1_0 : S8192x3072.Transposes [1, 0] S3072x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x3072_S3072x8192_S4096x8192_1_0_0_1_n_n_wf : DotDims.WF S4096x3072 S3072x8192 S4096x8192 [1] [0] [0] [1] [] []

variable [Facts₀]

def dot_S4096x3072_S3072x8192_S4096x8192_1_0_0_1_n_n : DotDims S4096x3072 S3072x8192 S4096x8192 where
  lhsContracting := [1]
  rhsContracting := [0]
  lhsNonContracting := [0]
  rhsNonContracting := [1]
  lhsBatch := []
  rhsBatch := []
  wf := dot_S4096x3072_S3072x8192_S4096x8192_1_0_0_1_n_n_wf

class Facts : Prop extends Facts₀ where

variable [Facts]
-- ==== Proof.Cases.lean ====
/-
  What each control case of the kernel body leaves behind, as values.

  The body runs in one of three ways, by the position k of the point along the contraction axis of the grid:
  k = 0 (the four accumulators are first set to zero, then each takes in its gate's product of the activation block
  with the weight block), k = 1 (each accumulator takes in the product over what the point before left), k = 2 (the
  same, and then the bias rows are added, the gate nonlinearities applied and the two result blocks stored).  Here
  each accumulator's contents after a point, and the two result blocks after a point with k = 2, are written as the
  body's arithmetic applied to the blocks the point was given and to what the accumulators held before it: an
  accumulator read back after its store in the same point is the stored value.  All of this holds at any float
  instance.
-/
import proofs.«112567_j18210661335500_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Cases

open Cert.KernelIdeal Cert.KernelIdeal.Gen

variable {F : FTy → Type} [FloatOps F]

/-- The offset of a whole-buffer access is zero on both axes. -/
theorem hz : (![0, 0] : Fin 2 → Nat) = fun _ => 0 := funext fun a => by fin_cases a <;> rfl

/-- At k = 0 the input-gate accumulator ends at zero plus the block product. -/
theorem acc0_first (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : cond0_0 i) (hc1 : ¬cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9  = k0_pay11 x0 x1 k0_pay5 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 )]
  unfold kernelRun0_A
  dsimp only
  sl_unfold_words
  rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S256x1024) hz, View.ld_unit_zero (S := S1x256) hz, View.ld_unit_zero (S := S1024x256) hz]

/-- At k = 0 the forget-gate accumulator ends at zero plus the block product. -/
theorem acc1_first (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : cond0_0 i) (hc1 : ¬cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9  = k0_pay12 x0 x2 k0_pay6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 )]
  unfold kernelRun0_A
  dsimp only
  sl_unfold_words
  rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S256x1024) hz, View.ld_unit_zero (S := S1x256) hz, View.ld_unit_zero (S := S1024x256) hz]

/-- At k = 0 the cell-gate accumulator ends at zero plus the block product. -/
theorem acc2_first (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : cond0_0 i) (hc1 : ¬cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9  = k0_pay1 (k0_pay13 x0 x3 k0_pay7) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 )]
  unfold kernelRun0_A
  dsimp only
  sl_unfold_words
  rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S256x1024) hz, View.ld_unit_zero (S := S1x256) hz, View.ld_unit_zero (S := S1024x256) hz]

/-- At k = 0 the output-gate accumulator ends at zero plus the block product. -/
theorem acc3_first (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : cond0_0 i) (hc1 : ¬cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) :
    sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9  = k0_pay2 (k0_pay9 x0) (k0_pay10 x4) k0_pay8 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 )]
  unfold kernelRun0_A
  dsimp only
  sl_unfold_words
  rw [View.canon_cons_unit_zero (S := S1024x256) hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S256x1024) hz, View.ld_unit_zero (S := S1x256) hz, View.ld_unit_zero (S := S1024x256) hz]

/-- At k = 1 the input-gate accumulator ends at what it held plus the block product. -/
theorem acc0_mid (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : ¬cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) (xs0 xs1 xs2 xs3 : Vec F S1024x256 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3  = k0_pay11 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 )]
  unfold kernelRun0_B
  dsimp only
  sl_unfold_words
  rw [View.canon_unit_zero hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S256x1024) hz, View.ld_unit_zero (S := S1x256) hz, View.ld_unit_zero (S := S1024x256) hz]

/-- At k = 1 the forget-gate accumulator ends at what it held plus the block product. -/
theorem acc1_mid (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : ¬cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) (xs0 xs1 xs2 xs3 : Vec F S1024x256 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3  = k0_pay12 x0 x2 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 )]
  unfold kernelRun0_B
  dsimp only
  sl_unfold_words
  rw [View.canon_unit_zero hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S256x1024) hz, View.ld_unit_zero (S := S1x256) hz, View.ld_unit_zero (S := S1024x256) hz]

/-- At k = 1 the cell-gate accumulator ends at what it held plus the block product. -/
theorem acc2_mid (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : ¬cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) (xs0 xs1 xs2 xs3 : Vec F S1024x256 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3  = k0_pay1 (k0_pay13 x0 x3 xs2) := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 )]
  unfold kernelRun0_B
  dsimp only
  sl_unfold_words
  rw [View.canon_unit_zero hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S256x1024) hz, View.ld_unit_zero (S := S1x256) hz, View.ld_unit_zero (S := S1024x256) hz]

/-- At k = 1 the output-gate accumulator ends at what it held plus the block product. -/
theorem acc3_mid (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : ¬cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) (xs0 xs1 xs2 xs3 : Vec F S1024x256 .f32) :
    sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3  = k0_pay2 (k0_pay9 x0) (k0_pay10 x4) xs3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 )]
  unfold kernelRun0_B
  dsimp only
  sl_unfold_words
  rw [View.canon_unit_zero hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S256x1024) hz, View.ld_unit_zero (S := S1x256) hz, View.ld_unit_zero (S := S1024x256) hz]

/-- At k = 2 the input-gate accumulator ends at what it held plus the block product. -/
theorem acc0_last (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) (xs0 xs1 xs2 xs3 : Vec F S1024x256 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3  = k0_pay11 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 )]
  unfold kernelRun0_C
  dsimp only
  sl_unfold_words
  rw [View.canon_unit_zero hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S256x1024) hz, View.ld_unit_zero (S := S1x256) hz, View.ld_unit_zero (S := S1024x256) hz]

/-- At k = 2 the forget-gate accumulator ends at what it held plus the block product. -/
theorem acc1_last (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) (xs0 xs1 xs2 xs3 : Vec F S1024x256 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3  = k0_pay12 x0 x2 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 )]
  unfold kernelRun0_C
  dsimp only
  sl_unfold_words
  rw [View.canon_unit_zero hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S256x1024) hz, View.ld_unit_zero (S := S1x256) hz, View.ld_unit_zero (S := S1024x256) hz]

/-- At k = 2 the cell-gate accumulator ends at what it held plus the block product. -/
theorem acc2_last (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) (xs0 xs1 xs2 xs3 : Vec F S1024x256 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3  = k0_pay1 (k0_pay13 x0 x3 xs2) := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 )]
  unfold kernelRun0_C
  dsimp only
  sl_unfold_words
  rw [View.canon_unit_zero hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S256x1024) hz, View.ld_unit_zero (S := S1x256) hz, View.ld_unit_zero (S := S1024x256) hz]

/-- At k = 2 the output-gate accumulator ends at what it held plus the block product. -/
theorem acc3_last (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) (xs0 xs1 xs2 xs3 : Vec F S1024x256 .f32) :
    sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3  = k0_pay2 (k0_pay9 x0) (k0_pay10 x4) xs3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 )]
  unfold kernelRun0_C
  dsimp only
  sl_unfold_words
  rw [View.canon_unit_zero hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S256x1024) hz, View.ld_unit_zero (S := S1x256) hz, View.ld_unit_zero (S := S1024x256) hz]

/-- At k = 2 the hidden-state block stored is the body's last payload of the four finished accumulators, the four bias
    rows and the previous cell block. -/
theorem hidden_last (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) (xs0 xs1 xs2 xs3 : Vec F S1024x256 .f32) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3  = k0_pay4 (k0_pay11 x0 x1 xs0) x5 (k0_pay12 x0 x2 xs1) x6 (k0_pay1 (k0_pay13 x0 x3 xs2)) x7 (k0_pay2 (k0_pay9 x0) (k0_pay10 x4) xs3) x8 x9 := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 )]
  unfold kernelRun0_C
  dsimp only
  sl_unfold_words
  rw [View.canon_unit_zero hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S256x1024) hz, View.ld_unit_zero (S := S1x256) hz, View.ld_unit_zero (S := S1024x256) hz]

/-- At k = 2 the cell-state block stored is the payload of the first three finished accumulators, their bias rows and the
    previous cell block. -/
theorem cell_last (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) (xs0 xs1 xs2 xs3 : Vec F S1024x256 .f32) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3  = k0_pay3 (k0_pay11 x0 x1 xs0) x5 (k0_pay12 x0 x2 xs1) x6 (k0_pay1 (k0_pay13 x0 x3 xs2)) x7 x9 := by
  unfold out0_C_11
  rw [View.read_writes_eq_canon _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 )]
  unfold kernelRun0_C
  dsimp only
  sl_unfold_words
  rw [View.canon_unit_zero hz]
  simp only [View.readCov_unit_zero (S := S1024x256) _ hz, View.readAt_eq_ld, harg3.read_unread, harg4.read_unread, harg5.read_unread, harg6.read_unread, harg7.read_unread, harg8.read_unread, harg9.read_unread, harg10.read_unread, harg11.read_unread, harg12.read_unread, harg15.read_unread, harg16.read_unread, harg17.read_unread, harg18.read_unread, View.ld_unit_zero (S := S1024x1024) hz, View.ld_unit_zero (S := S256x1024) hz, View.ld_unit_zero (S := S1x256) hz, View.ld_unit_zero (S := S1024x256) hz]

/-- At k = 2 the hidden-state block, in terms of what the same point leaves in the four accumulators. -/
theorem hidden_of_accs (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) (xs0 xs1 xs2 xs3 : Vec F S1024x256 .f32) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3  = k0_pay4 (sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 ) x5 (sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 ) x6 (sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 ) x7 (sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 ) x8 x9 := by
  rw [acc0_last, acc1_last, acc2_last, acc3_last]
  exact hidden_last c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3

/-- At k = 2 the cell-state block, in terms of what the same point leaves in the first three accumulators. -/
theorem cell_of_accs (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) (xs0 xs1 xs2 xs3 : Vec F S1024x256 .f32) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3  = k0_pay3 (sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 ) x5 (sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 ) x6 (sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 ) x7 x9 := by
  rw [acc0_last, acc1_last, acc2_last]
  exact cell_last c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3

/-- At k = 2, for the six contents a point leaves (the two result blocks, then the four accumulators): the hidden and
    cell blocks are the last payloads of the accumulators it leaves, the bias rows and the previous cell block. -/
theorem last_point (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (hc0 : ¬cond0_0 i) (hc1 : cond0_1 i) (x0 : Vec F S1024x1024 .bf16) (x1 : Vec F S256x1024 .bf16) (x2 : Vec F S256x1024 .bf16) (x3 : Vec F S256x1024 .bf16) (x4 : Vec F S256x1024 .bf16) (x5 : Vec F S1x256 .f32) (x6 : Vec F S1x256 .f32) (x7 : Vec F S1x256 .f32) (x8 : Vec F S1x256 .f32) (x9 : Vec F S1024x256 .f32) (xs0 xs1 xs2 xs3 : Vec F S1024x256 .f32)
    (T : Vec F S1024x256 .f32 × Vec F S1024x256 .f32 × Vec F S1024x256 .f32 × Vec F S1024x256 .f32 × Vec F S1024x256 .f32 × Vec F S1024x256 .f32)
    (hT : T = (out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 , out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 , sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 , sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 ,
      sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 , sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 )) :
    T.1 = k0_pay4 T.2.2.1 x5 T.2.2.2.1 x6 T.2.2.2.2.1 x7 T.2.2.2.2.2 x8 x9
      ∧ T.2.1 = k0_pay3 T.2.2.1 x5 T.2.2.2.1 x6 T.2.2.2.2.1 x7 x9 := by
  subst hT
  dsimp only
  exact ⟨hidden_of_accs c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 , cell_of_accs c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 ⟩

end Cert.KernelIdeal.Cases

end
-- ==== Proof.LibMatmulRhsT.lean ====
/-
  A matrix product that contracts BOTH operands' last axes, read at an index, at the ideal values.

  For an [A, K] matrix times a [B, K] matrix contracting the left operand's columns with the right operand's columns
  (the product of the first with the transpose of the second, written without forming the transpose) a `tpu.matmul`
  into the zero accumulator is, at (p, m), the sum over k of L(p, k) · R(m, k): a sum indexed by `Fin K`, with both
  operands read at indices written by coordinates. The contraction index of the library's general statement is
  re-indexed through its one coordinate, and the operand indices it names are computed axis by axis.
-/
import Idealize.ShloMosaic.PureOps.Ideal.Laws
import Idealize.ShloMosaic.Lib.ValueIdx

noncomputable section

namespace Cert.LibMatmulRhsT

open Idealize.ShloMosaic Idealize.ShloMosaic.ValueIdx

/-- For an [A, K] by [B, K] product contracting both last axes, the left operand's index at result (p, m) and
    contraction coordinate k is (p, k). -/
theorem transposedRhs_lhsIdx (A K B : Nat) (p : Fin A) (m : Fin B) (k : Fin K) :
    (DotDims.transposedRhs A K B).lhsIdx (ix2 p m) ((contrEquiv1 (DotDims.transposedRhs A K B) K rfl rfl).symm k) = ix2 p k :=
  funext fun a => Fin.ext (by
    match a with
    | ⟨0, _⟩ => rfl
    | ⟨1, _⟩ =>
      exact ((DotDims.transposedRhs A K B).lhsIdx_val_of_single (cl := 1) rfl _ _).trans
        (contrEquiv1_symm_val (DotDims.transposedRhs A K B) K rfl rfl k))

/-- The right operand's index there is (m, k). -/
theorem transposedRhs_rhsIdx (A K B : Nat) (p : Fin A) (m : Fin B) (k : Fin K) :
    (DotDims.transposedRhs A K B).rhsIdx (ix2 p m) ((contrEquiv1 (DotDims.transposedRhs A K B) K rfl rfl).symm k) = ix2 m k :=
  funext fun a => Fin.ext (by
    match a with
    | ⟨0, _⟩ => rfl
    | ⟨1, _⟩ =>
      exact ((DotDims.transposedRhs A K B).rhsIdx_val_of_single (cr := 1) rfl _ _).trans
        (contrEquiv1_symm_val (DotDims.transposedRhs A K B) K rfl rfl k))

/-- An [A, K] by [B, K] product contracting both last axes, into the zero accumulator, read at (p, m):
    Σ_k L(p, k) · R(m, k). -/
theorem matmul_transposedRhs_zero_apply (A K B : Nat) {φ₁ φ₂ : FTy} (prec : Option ContractPrecision)
    (lhs : FVec Ideal ⟨2, ![A, K]⟩ φ₁) (rhs : FVec Ideal ⟨2, ![B, K]⟩ φ₂) (p : Fin A) (m : Fin B) :
    FloatOps.matmul (DotDims.transposedRhs A K B) prec lhs rhs (constant ⟨2, ![A, B]⟩ .f32 0x00000000#32) (ix2 p m)
      = ∑ k : Fin K, lhs (ix2 p k) * rhs (ix2 m k) := by
  rw [Ideal.matmul_constant_zero_apply, ← Equiv.sum_comp (contrEquiv1 (DotDims.transposedRhs A K B) K rfl rfl).symm]
  refine Finset.sum_congr rfl fun k _ => ?_
  rw [transposedRhs_lhsIdx, transposedRhs_rhsIdx]

end Cert.LibMatmulRhsT

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.Spec.lean ====
/-
  One step of an LSTM cell, as functions of the argument arrays on the extended reals.

  With comb = [x | h_prev] (4096 × 3072), a gate's pre-activation at batch row r and hidden unit h is
      gate(r, h) = Σ_{k < 3072} comb(r, k) · W(h, k) + b(h),
  and the new cell and hidden states are
      c' = σ(gate_f) · c + σ(gate_i) · tanh(gate_c),      h' = σ(gate_o) · tanh(c'),
  σ the logistic function.  A sum over the 3072 contraction positions is the sum of its three runs of 1024:
  addition on the extended reals is commutative and associative, so no finiteness is needed for that.
-/
import Idealize.ShloMosaic.PureOps.Ideal
import Idealize.ShloMosaic.Lib.ValueIdx
import proofs.«112567_j18210661335500_2_alg».proof.Proof.LibTileSum

noncomputable section

namespace Cert.LstmStep

open Idealize.ShloMosaic Idealize.ShloMosaic.ValueIdx

/-- The concatenated activations [x | h_prev]. -/
abbrev SAct : Shape := ⟨2, ![4096, 3072]⟩
/-- One gate's weight matrix. -/
abbrev SWgt : Shape := ⟨2, ![2048, 3072]⟩
/-- One gate's bias. -/
abbrev SBias : Shape := ⟨1, ![2048]⟩
/-- A state array (cell or hidden). -/
abbrev SState : Shape := ⟨2, ![4096, 2048]⟩

/-- A gate's pre-activation: the row of activations against the unit's row of weights, plus the unit's bias. -/
def gate (comb : SAct.Idx → EReal) (W : SWgt.Idx → EReal) (b : SBias.Idx → EReal) (r : Fin 4096) (h : Fin 2048) : EReal :=
  (∑ k : Fin 3072, comb (ix2 r k) * W (ix2 h k)) + b (ix1 h)

/-- The new cell value from the input, forget and cell gates' pre-activations and the previous cell value. -/
def cellVal (gi gf gc cp : EReal) : EReal := Ideal.logistic gf * cp + Ideal.logistic gi * Ideal.tanh gc

/-- The new hidden value from the four pre-activations and the previous cell value. -/
def hiddenVal (gi gf gc go cp : EReal) : EReal := Ideal.logistic go * Ideal.tanh (cellVal gi gf gc cp)

/-- The new cell state, entry by entry. -/
def cellArr (comb : SAct.Idx → EReal) (Wi : SWgt.Idx → EReal) (bi : SBias.Idx → EReal) (Wf : SWgt.Idx → EReal)
    (bf : SBias.Idx → EReal) (Wc : SWgt.Idx → EReal) (bc : SBias.Idx → EReal) (cp : SState.Idx → EReal) : SState.Idx → EReal :=
  fun j => cellVal (gate comb Wi bi (j 0) (j 1)) (gate comb Wf bf (j 0) (j 1)) (gate comb Wc bc (j 0) (j 1)) (cp j)

/-- The new hidden state, entry by entry. -/
def hiddenArr (comb : SAct.Idx → EReal) (Wi : SWgt.Idx → EReal) (bi : SBias.Idx → EReal) (Wf : SWgt.Idx → EReal)
    (bf : SBias.Idx → EReal) (Wc : SWgt.Idx → EReal) (bc : SBias.Idx → EReal) (Wo : SWgt.Idx → EReal) (bo : SBias.Idx → EReal)
    (cp : SState.Idx → EReal) : SState.Idx → EReal :=
  fun j => hiddenVal (gate comb Wi bi (j 0) (j 1)) (gate comb Wf bf (j 0) (j 1)) (gate comb Wc bc (j 0) (j 1))
    (gate comb Wo bo (j 0) (j 1)) (cp j)

/-- Zero, then the three runs of 1024 contraction positions added one after the other, is the sum over all 3072. -/
theorem runs_sum (g : Fin 3072 → EReal) :
    (0 : EReal) + ∑ s ∈ Finset.range 3, (if h : s < 3 then ∑ kk : Fin 1024, g (TileSum.idx (A := 3) (a := 1024) rfl ⟨s, h⟩ kk) else 0)
      = ∑ k, g k := by
  rw [zero_add, TileSum.sum_axis (A := 3) (a := 1024) rfl g, Finset.sum_range]
  exact Finset.sum_congr rfl fun s _ => by rw [dif_pos s.isLt]

end Cert.LstmStep

end
-- ==== Proof.Arith.lean ====
/-
  The body's arithmetic read entry by entry on the extended reals.

  One accumulation step adds to an accumulator entry (p, q) the product of row p of the activation block with row q
  of the weight block, a sum over the block's 1024 contraction positions.  The last step's two payloads take the four
  finished accumulators, add each gate's bias row (one row spread over the block's rows), and form the cell and hidden
  values of an LSTM step.
-/
import proofs.«112567_j18210661335500_2_alg».proof.Proof.Gen.KernelIdeal.Skeleton
import proofs.«112567_j18210661335500_2_alg».proof.Proof.LibMatmulRhsT
import proofs.«112567_j18210661335500_2_alg».proof.Proof.LibRowBroadcast
import proofs.«112567_j18210661335500_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Arith

open Cert.KernelIdeal Cert.KernelIdeal.Gen Cert.LstmStep

/-- The block product at (p, q): row p of the activation block against row q of the weight block. -/
def blockDot (a : Vec Ideal S1024x1024 .bf16) (w : Vec Ideal S256x1024 .bf16) (p : Fin 1024) (q : Fin 256) : EReal :=
  ∑ k : Fin 1024, a (ix2 p k) * w (ix2 q k)

/-- The product of the two blocks into a zero accumulator, at (p, q). -/
theorem matmul_apply (a : Vec Ideal S1024x1024 .bf16) (w : Vec Ideal S256x1024 .bf16) (p : Fin 1024) (q : Fin 256) :
    (matmul (φ₁ := .bf16) (φ₂ := .bf16) dot_S1024x1024_S256x1024_S1024x256_1_1_0_0_n_n none a w
      (constant S1024x256 .f32 0x00000000#32) : FVec Ideal S1024x256 .f32) (ix2 p q) = blockDot a w p q :=
  Cert.LibMatmulRhsT.matmul_transposedRhs_zero_apply 1024 1024 256 none a w p q

/-- The zero block is zero at every entry. -/
theorem zero_i (j : S1024x256.Idx) : (k0_pay5 (F := Ideal)) j = 0 := Ideal.ofBits_zero_f32
theorem zero_f (j : S1024x256.Idx) : (k0_pay6 (F := Ideal)) j = 0 := Ideal.ofBits_zero_f32
theorem zero_c (j : S1024x256.Idx) : (k0_pay7 (F := Ideal)) j = 0 := Ideal.ofBits_zero_f32
theorem zero_o (j : S1024x256.Idx) : (k0_pay8 (F := Ideal)) j = 0 := Ideal.ofBits_zero_f32

/-- The input-gate accumulator's step at (p, q). -/
theorem step_i (a : Vec Ideal S1024x1024 .bf16) (w : Vec Ideal S256x1024 .bf16) (acc : Vec Ideal S1024x256 .f32)
    (p : Fin 1024) (q : Fin 256) : k0_pay11 a w acc (ix2 p q) = acc (ix2 p q) + blockDot a w p q := by
  unfold k0_pay11 k0_pay9
  simp only [shapeCast_self]
  exact congrArg (acc (ix2 p q) + ·) (matmul_apply a w p q)

/-- The forget-gate accumulator's step at (p, q). -/
theorem step_f (a : Vec Ideal S1024x1024 .bf16) (w : Vec Ideal S256x1024 .bf16) (acc : Vec Ideal S1024x256 .f32)
    (p : Fin 1024) (q : Fin 256) : k0_pay12 a w acc (ix2 p q) = acc (ix2 p q) + blockDot a w p q := by
  unfold k0_pay12 k0_pay9
  simp only [shapeCast_self]
  exact congrArg (acc (ix2 p q) + ·) (matmul_apply a w p q)

/-- The cell-gate accumulator's step at (p, q). -/
theorem step_c (a : Vec Ideal S1024x1024 .bf16) (w : Vec Ideal S256x1024 .bf16) (acc : Vec Ideal S1024x256 .f32)
    (p : Fin 1024) (q : Fin 256) : k0_pay1 (k0_pay13 a w acc) (ix2 p q) = acc (ix2 p q) + blockDot a w p q := by
  unfold k0_pay1 k0_pay13 k0_pay9
  simp only [shapeCast_self]
  exact congrArg (acc (ix2 p q) + ·) (matmul_apply a w p q)

/-- The output-gate accumulator's step at (p, q). -/
theorem step_o (a : Vec Ideal S1024x1024 .bf16) (w : Vec Ideal S256x1024 .bf16) (acc : Vec Ideal S1024x256 .f32)
    (p : Fin 1024) (q : Fin 256) : k0_pay2 (k0_pay9 a) (k0_pay10 w) acc (ix2 p q) = acc (ix2 p q) + blockDot a w p q := by
  unfold k0_pay2 k0_pay9 k0_pay10
  simp only [shapeCast_self]
  exact congrArg (acc (ix2 p q) + ·) (matmul_apply a w p q)

/-- A bias row spread over the block's rows reads the row's entry of the column. -/
theorem bias_apply (b : Vec Ideal S1x256 .f32) (p : Fin 1024) (q : Fin 256) :
    (broadcastTo S1024x256 (shapeCast S1x256 b shapeCasts_S1x256_S1x256) broadcasts_S1x256_S1024x256 : FVec Ideal S1024x256 .f32) (ix2 p q)
      = b (ix2 0 q) := by
  rw [shapeCast_self]
  exact Cert.LibRowBroadcast.broadcastTo_1b_ab_apply b broadcasts_S1x256_S1024x256 p q 0

/-- The cell block stored at the last step, at (p, q): the cell value of the three gates' accumulators plus biases. -/
theorem cell_apply (ai : Vec Ideal S1024x256 .f32) (bi : Vec Ideal S1x256 .f32) (af : Vec Ideal S1024x256 .f32)
    (bf : Vec Ideal S1x256 .f32) (ac : Vec Ideal S1024x256 .f32) (bc : Vec Ideal S1x256 .f32) (cp : Vec Ideal S1024x256 .f32)
    (p : Fin 1024) (q : Fin 256) :
    k0_pay3 ai bi af bf ac bc cp (ix2 p q)
      = cellVal (ai (ix2 p q) + bi (ix2 0 q)) (af (ix2 p q) + bf (ix2 0 q)) (ac (ix2 p q) + bc (ix2 0 q)) (cp (ix2 p q)) := by
  unfold k0_pay3 cellVal
  show Ideal.logistic (af (ix2 p q) + _) * cp (ix2 p q) + Ideal.logistic (ai (ix2 p q) + _) * Ideal.tanh (ac (ix2 p q) + _) = _
  rw [bias_apply bi p q, bias_apply bf p q, bias_apply bc p q]

/-- The hidden block stored at the last step, at (p, q). -/
theorem hidden_apply (ai : Vec Ideal S1024x256 .f32) (bi : Vec Ideal S1x256 .f32) (af : Vec Ideal S1024x256 .f32)
    (bf : Vec Ideal S1x256 .f32) (ac : Vec Ideal S1024x256 .f32) (bc : Vec Ideal S1x256 .f32) (ao : Vec Ideal S1024x256 .f32)
    (bo : Vec Ideal S1x256 .f32) (cp : Vec Ideal S1024x256 .f32) (p : Fin 1024) (q : Fin 256) :
    k0_pay4 ai bi af bf ac bc ao bo cp (ix2 p q)
      = hiddenVal (ai (ix2 p q) + bi (ix2 0 q)) (af (ix2 p q) + bf (ix2 0 q)) (ac (ix2 p q) + bc (ix2 0 q))
          (ao (ix2 p q) + bo (ix2 0 q)) (cp (ix2 p q)) := by
  unfold k0_pay4 hiddenVal
  show Ideal.logistic (ao (ix2 p q) + _) * Ideal.tanh (k0_pay3 ai bi af bf ac bc cp (ix2 p q)) = _
  rw [bias_apply bo p q, cell_apply]

/-- The hidden block's entry from the four pre-activations and the previous cell entry, however these are known. -/
theorem hidden_entry (ai : Vec Ideal S1024x256 .f32) (bi : Vec Ideal S1x256 .f32) (af : Vec Ideal S1024x256 .f32)
    (bf : Vec Ideal S1x256 .f32) (ac : Vec Ideal S1024x256 .f32) (bc : Vec Ideal S1x256 .f32) (ao : Vec Ideal S1024x256 .f32)
    (bo : Vec Ideal S1x256 .f32) (cp : Vec Ideal S1024x256 .f32) (p : Fin 1024) (q : Fin 256) (gi gf gc go cv : EReal)
    (ei : ai (ix2 p q) + bi (ix2 0 q) = gi) (ef : af (ix2 p q) + bf (ix2 0 q) = gf) (ec : ac (ix2 p q) + bc (ix2 0 q) = gc)
    (eo : ao (ix2 p q) + bo (ix2 0 q) = go) (ev : cp (ix2 p q) = cv) :
    k0_pay4 ai bi af bf ac bc ao bo cp (ix2 p q) = hiddenVal gi gf gc go cv := by
  rw [hidden_apply, ei, ef, ec, eo, ev]

/-- The cell block's entry from the three pre-activations and the previous cell entry, however these are known. -/
theorem cell_entry (ai : Vec Ideal S1024x256 .f32) (bi : Vec Ideal S1x256 .f32) (af : Vec Ideal S1024x256 .f32)
    (bf : Vec Ideal S1x256 .f32) (ac : Vec Ideal S1024x256 .f32) (bc : Vec Ideal S1x256 .f32) (cp : Vec Ideal S1024x256 .f32)
    (p : Fin 1024) (q : Fin 256) (gi gf gc cv : EReal)
    (ei : ai (ix2 p q) + bi (ix2 0 q) = gi) (ef : af (ix2 p q) + bf (ix2 0 q) = gf) (ec : ac (ix2 p q) + bc (ix2 0 q) = gc)
    (ev : cp (ix2 p q) = cv) :
    k0_pay3 ai bi af bf ac bc cp (ix2 p q) = cellVal gi gf gc cv := by
  rw [cell_apply, ei, ef, ec, ev]

end Cert.KernelIdeal.Arith

end
-- ==== Proof.Accum.lean ====
/-
  The accumulators over a run of three points.

  The three points 3n, 3n+1, 3n+2 share a batch tile and a hidden tile and walk the contraction tiles 0, 1, 2.  Each
  gate's accumulator is reset at the first of them and takes in, at every one of them, the product of that point's
  activation block with that point's weight block.  So after the point at offset j in its run the accumulator holds
  zero plus the block products of the run's points up to it, added in order.
-/
import proofs.«112567_j18210661335500_2_alg».proof.Proof.Gen.KernelIdeal.Value
import proofs.«112567_j18210661335500_2_alg».proof.Proof.Cases
import proofs.«112567_j18210661335500_2_alg».proof.Proof.Arith
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Accum

open Cert.KernelIdeal Cert.KernelIdeal.Gen

variable (m : (ℓ : Loc nD τ sig) → Buf (Elt Ideal) ℓ)

/-- What point n adds to the input-gate accumulator, entry by entry: its activation block against its weight
    block (zero past the grid, where nothing reads it). -/
def addend1 (c : Dev nD) (n : ℕ) (i : S1024x256.Idx) : EReal :=
  if h : n < cfg0.N then Arith.blockDot (iblk m c 0 ⟨n, h⟩) (iblk m c 1 ⟨n, h⟩) (i 0) (i 1) else 0

/-- At the first point of a run the input-gate accumulator is left at zero plus the point's block product. -/
theorem first1 (c : Dev nD) (n : ℕ) (h : n < cfg0.N) (h0 : n % 3 = 0) (acc : Vec Ideal S1024x256 .f32) (i : S1024x256.Idx) :
    Value.scAt0_0 m c n h acc i = 0 + addend1 m c n i := by
  have h1 : ¬n % 3 = 2 := by omega
  obtain ⟨p, q, rfl⟩ : ∃ (p : Fin 1024) (q : Fin 256), i = ix2 p q := ⟨i 0, i 1, eq_ix2 i⟩
  unfold Value.scAt0_0
  rw [dif_pos h0, dif_neg h1]
  refine (congrFun (Cases.acc0_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) ) (ix2 p q)).trans ?_
  refine (Arith.step_i (iblk m c 0 (⟨n, h⟩ : Fin cfg0.N)) (iblk m c 1 (⟨n, h⟩ : Fin cfg0.N)) _ p q).trans ?_
  rw [Arith.zero_i]
  unfold addend1
  rw [dif_pos h]

/-- At a later point of a run the input-gate accumulator takes in the point's block product. -/
theorem next1 (c : Dev nD) (n : ℕ) (h : n < cfg0.N) (h0 : ¬n % 3 = 0) (acc : Vec Ideal S1024x256 .f32) (i : S1024x256.Idx) :
    Value.scAt0_0 m c n h acc i = acc i + addend1 m c n i := by
  obtain ⟨p, q, rfl⟩ : ∃ (p : Fin 1024) (q : Fin 256), i = ix2 p q := ⟨i 0, i 1, eq_ix2 i⟩
  unfold Value.scAt0_0 addend1
  rw [dif_pos h]
  by_cases h1 : n % 3 = 2
  · rw [dif_neg h0, dif_pos h1]
    refine (congrFun (Cases.acc0_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) acc _ _ _ ) (ix2 p q)).trans ?_
    exact Arith.step_i (iblk m c 0 (⟨n, h⟩ : Fin cfg0.N)) (iblk m c 1 (⟨n, h⟩ : Fin cfg0.N)) acc p q
  · rw [dif_neg h0, dif_neg h1]
    refine (congrFun (Cases.acc0_mid (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) acc _ _ _ ) (ix2 p q)).trans ?_
    exact Arith.step_i (iblk m c 0 (⟨n, h⟩ : Fin cfg0.N)) (iblk m c 1 (⟨n, h⟩ : Fin cfg0.N)) acc p q

/-- After point t the input-gate accumulator holds zero plus the block products of its run's points up to t. -/
theorem total1 (c : Dev nD) (t : Fin cfg0.N) (i : S1024x256.Idx) :
    (outsAt0 m c t.val t.isLt).2.2.1 i
      = 0 + ∑ s ∈ Finset.range (t.val % 3 + 1), addend1 m c (3 * (t.val / 3) + s) i := by
  rw [Value.soutsAt0_0_eq m c t]
  exact Pipeline.accAt_add_apply (N := cfg0.N) _ _ (fun _ => (0 : EReal)) (addend1 m c) (3 * (t.val / 3)) 2
    (fun h i => first1 m c _ h (by omega) _ i)
    (fun n h acc i hlo hhi => next1 m c n h (by omega) acc i)
    (t.val % 3) (by omega) _ i

/-- What point n adds to the forget-gate accumulator, entry by entry: its activation block against its weight
    block (zero past the grid, where nothing reads it). -/
def addend2 (c : Dev nD) (n : ℕ) (i : S1024x256.Idx) : EReal :=
  if h : n < cfg0.N then Arith.blockDot (iblk m c 0 ⟨n, h⟩) (iblk m c 2 ⟨n, h⟩) (i 0) (i 1) else 0

/-- At the first point of a run the forget-gate accumulator is left at zero plus the point's block product. -/
theorem first2 (c : Dev nD) (n : ℕ) (h : n < cfg0.N) (h0 : n % 3 = 0) (acc : Vec Ideal S1024x256 .f32) (i : S1024x256.Idx) :
    Value.scAt0_1 m c n h acc i = 0 + addend2 m c n i := by
  have h1 : ¬n % 3 = 2 := by omega
  obtain ⟨p, q, rfl⟩ : ∃ (p : Fin 1024) (q : Fin 256), i = ix2 p q := ⟨i 0, i 1, eq_ix2 i⟩
  unfold Value.scAt0_1
  rw [dif_pos h0, dif_neg h1]
  refine (congrFun (Cases.acc1_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) ) (ix2 p q)).trans ?_
  refine (Arith.step_f (iblk m c 0 (⟨n, h⟩ : Fin cfg0.N)) (iblk m c 2 (⟨n, h⟩ : Fin cfg0.N)) _ p q).trans ?_
  rw [Arith.zero_f]
  unfold addend2
  rw [dif_pos h]

/-- At a later point of a run the forget-gate accumulator takes in the point's block product. -/
theorem next2 (c : Dev nD) (n : ℕ) (h : n < cfg0.N) (h0 : ¬n % 3 = 0) (acc : Vec Ideal S1024x256 .f32) (i : S1024x256.Idx) :
    Value.scAt0_1 m c n h acc i = acc i + addend2 m c n i := by
  obtain ⟨p, q, rfl⟩ : ∃ (p : Fin 1024) (q : Fin 256), i = ix2 p q := ⟨i 0, i 1, eq_ix2 i⟩
  unfold Value.scAt0_1 addend2
  rw [dif_pos h]
  by_cases h1 : n % 3 = 2
  · rw [dif_neg h0, dif_pos h1]
    refine (congrFun (Cases.acc1_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ acc _ _ ) (ix2 p q)).trans ?_
    exact Arith.step_f (iblk m c 0 (⟨n, h⟩ : Fin cfg0.N)) (iblk m c 2 (⟨n, h⟩ : Fin cfg0.N)) acc p q
  · rw [dif_neg h0, dif_neg h1]
    refine (congrFun (Cases.acc1_mid (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ acc _ _ ) (ix2 p q)).trans ?_
    exact Arith.step_f (iblk m c 0 (⟨n, h⟩ : Fin cfg0.N)) (iblk m c 2 (⟨n, h⟩ : Fin cfg0.N)) acc p q

/-- After point t the forget-gate accumulator holds zero plus the block products of its run's points up to t. -/
theorem total2 (c : Dev nD) (t : Fin cfg0.N) (i : S1024x256.Idx) :
    (outsAt0 m c t.val t.isLt).2.2.2.1 i
      = 0 + ∑ s ∈ Finset.range (t.val % 3 + 1), addend2 m c (3 * (t.val / 3) + s) i := by
  rw [Value.soutsAt0_1_eq m c t]
  exact Pipeline.accAt_add_apply (N := cfg0.N) _ _ (fun _ => (0 : EReal)) (addend2 m c) (3 * (t.val / 3)) 2
    (fun h i => first2 m c _ h (by omega) _ i)
    (fun n h acc i hlo hhi => next2 m c n h (by omega) acc i)
    (t.val % 3) (by omega) _ i

/-- What point n adds to the cell-gate accumulator, entry by entry: its activation block against its weight
    block (zero past the grid, where nothing reads it). -/
def addend3 (c : Dev nD) (n : ℕ) (i : S1024x256.Idx) : EReal :=
  if h : n < cfg0.N then Arith.blockDot (iblk m c 0 ⟨n, h⟩) (iblk m c 3 ⟨n, h⟩) (i 0) (i 1) else 0

/-- At the first point of a run the cell-gate accumulator is left at zero plus the point's block product. -/
theorem first3 (c : Dev nD) (n : ℕ) (h : n < cfg0.N) (h0 : n % 3 = 0) (acc : Vec Ideal S1024x256 .f32) (i : S1024x256.Idx) :
    Value.scAt0_2 m c n h acc i = 0 + addend3 m c n i := by
  have h1 : ¬n % 3 = 2 := by omega
  obtain ⟨p, q, rfl⟩ : ∃ (p : Fin 1024) (q : Fin 256), i = ix2 p q := ⟨i 0, i 1, eq_ix2 i⟩
  unfold Value.scAt0_2
  rw [dif_pos h0, dif_neg h1]
  refine (congrFun (Cases.acc2_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) ) (ix2 p q)).trans ?_
  refine (Arith.step_c (iblk m c 0 (⟨n, h⟩ : Fin cfg0.N)) (iblk m c 3 (⟨n, h⟩ : Fin cfg0.N)) _ p q).trans ?_
  rw [Arith.zero_c]
  unfold addend3
  rw [dif_pos h]

/-- At a later point of a run the cell-gate accumulator takes in the point's block product. -/
theorem next3 (c : Dev nD) (n : ℕ) (h : n < cfg0.N) (h0 : ¬n % 3 = 0) (acc : Vec Ideal S1024x256 .f32) (i : S1024x256.Idx) :
    Value.scAt0_2 m c n h acc i = acc i + addend3 m c n i := by
  obtain ⟨p, q, rfl⟩ : ∃ (p : Fin 1024) (q : Fin 256), i = ix2 p q := ⟨i 0, i 1, eq_ix2 i⟩
  unfold Value.scAt0_2 addend3
  rw [dif_pos h]
  by_cases h1 : n % 3 = 2
  · rw [dif_neg h0, dif_pos h1]
    refine (congrFun (Cases.acc2_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ acc _ ) (ix2 p q)).trans ?_
    exact Arith.step_c (iblk m c 0 (⟨n, h⟩ : Fin cfg0.N)) (iblk m c 3 (⟨n, h⟩ : Fin cfg0.N)) acc p q
  · rw [dif_neg h0, dif_neg h1]
    refine (congrFun (Cases.acc2_mid (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ acc _ ) (ix2 p q)).trans ?_
    exact Arith.step_c (iblk m c 0 (⟨n, h⟩ : Fin cfg0.N)) (iblk m c 3 (⟨n, h⟩ : Fin cfg0.N)) acc p q

/-- After point t the cell-gate accumulator holds zero plus the block products of its run's points up to t. -/
theorem total3 (c : Dev nD) (t : Fin cfg0.N) (i : S1024x256.Idx) :
    (outsAt0 m c t.val t.isLt).2.2.2.2.1 i
      = 0 + ∑ s ∈ Finset.range (t.val % 3 + 1), addend3 m c (3 * (t.val / 3) + s) i := by
  rw [Value.soutsAt0_2_eq m c t]
  exact Pipeline.accAt_add_apply (N := cfg0.N) _ _ (fun _ => (0 : EReal)) (addend3 m c) (3 * (t.val / 3)) 2
    (fun h i => first3 m c _ h (by omega) _ i)
    (fun n h acc i hlo hhi => next3 m c n h (by omega) acc i)
    (t.val % 3) (by omega) _ i

/-- What point n adds to the output-gate accumulator, entry by entry: its activation block against its weight
    block (zero past the grid, where nothing reads it). -/
def addend4 (c : Dev nD) (n : ℕ) (i : S1024x256.Idx) : EReal :=
  if h : n < cfg0.N then Arith.blockDot (iblk m c 0 ⟨n, h⟩) (iblk m c 4 ⟨n, h⟩) (i 0) (i 1) else 0

/-- At the first point of a run the output-gate accumulator is left at zero plus the point's block product. -/
theorem first4 (c : Dev nD) (n : ℕ) (h : n < cfg0.N) (h0 : n % 3 = 0) (acc : Vec Ideal S1024x256 .f32) (i : S1024x256.Idx) :
    Value.scAt0_3 m c n h acc i = 0 + addend4 m c n i := by
  have h1 : ¬n % 3 = 2 := by omega
  obtain ⟨p, q, rfl⟩ : ∃ (p : Fin 1024) (q : Fin 256), i = ix2 p q := ⟨i 0, i 1, eq_ix2 i⟩
  unfold Value.scAt0_3
  rw [dif_pos h0, dif_neg h1]
  refine (congrFun (Cases.acc3_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) ) (ix2 p q)).trans ?_
  refine (Arith.step_o (iblk m c 0 (⟨n, h⟩ : Fin cfg0.N)) (iblk m c 4 (⟨n, h⟩ : Fin cfg0.N)) _ p q).trans ?_
  rw [Arith.zero_o]
  unfold addend4
  rw [dif_pos h]

/-- At a later point of a run the output-gate accumulator takes in the point's block product. -/
theorem next4 (c : Dev nD) (n : ℕ) (h : n < cfg0.N) (h0 : ¬n % 3 = 0) (acc : Vec Ideal S1024x256 .f32) (i : S1024x256.Idx) :
    Value.scAt0_3 m c n h acc i = acc i + addend4 m c n i := by
  obtain ⟨p, q, rfl⟩ : ∃ (p : Fin 1024) (q : Fin 256), i = ix2 p q := ⟨i 0, i 1, eq_ix2 i⟩
  unfold Value.scAt0_3 addend4
  rw [dif_pos h]
  by_cases h1 : n % 3 = 2
  · rw [dif_neg h0, dif_pos h1]
    refine (congrFun (Cases.acc3_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ _ acc ) (ix2 p q)).trans ?_
    exact Arith.step_o (iblk m c 0 (⟨n, h⟩ : Fin cfg0.N)) (iblk m c 4 (⟨n, h⟩ : Fin cfg0.N)) acc p q
  · rw [dif_neg h0, dif_neg h1]
    refine (congrFun (Cases.acc3_mid (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) scM0_2 (Memref.isWhole_whole _) scM0_3 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) _ _ _ acc ) (ix2 p q)).trans ?_
    exact Arith.step_o (iblk m c 0 (⟨n, h⟩ : Fin cfg0.N)) (iblk m c 4 (⟨n, h⟩ : Fin cfg0.N)) acc p q

/-- After point t the output-gate accumulator holds zero plus the block products of its run's points up to t. -/
theorem total4 (c : Dev nD) (t : Fin cfg0.N) (i : S1024x256.Idx) :
    (outsAt0 m c t.val t.isLt).2.2.2.2.2 i
      = 0 + ∑ s ∈ Finset.range (t.val % 3 + 1), addend4 m c (3 * (t.val / 3) + s) i := by
  rw [Value.soutsAt0_3_eq m c t]
  exact Pipeline.accAt_add_apply (N := cfg0.N) _ _ (fun _ => (0 : EReal)) (addend4 m c) (3 * (t.val / 3)) 2
    (fun h i => first4 m c _ h (by omega) _ i)
    (fun n h acc i hlo hhi => next4 m c n h (by omega) acc i)
    (t.val % 3) (by omega) _ i

end Cert.KernelIdeal.Accum

end
-- ==== Proof.Blocks.lean ====
/-
  The blocks a grid point is given, read off the argument arrays.

  The grid is 4 × 8 × 3: point t = (bt·8 + ht)·3 + kt has batch tile bt = t / 24, hidden tile ht = (t / 3) % 8 and
  contraction tile kt = t % 3.  The activation block is rows bt·1024 … of [x | h_prev] and columns kt·1024 …; a weight
  block is rows ht·256 … and columns kt·1024 … of that gate's matrix; a bias block is columns ht·256 … of the bias
  written as one row; the previous-cell block and both result blocks are rows bt·1024 …, columns ht·256 ….
  Before the region the activations are [x | h_prev] with each half's entries unchanged by the change of float format,
  the weight matrices likewise, and each bias is reshaped to one row.
-/
import proofs.«112567_j18210661335500_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The activations [x | h_prev] of the argument arrays. -/
def act (c : Dev nD) : S4096x3072.Idx → EReal :=
  concatenate S4096x3072 1 [⟨S4096x1024, m ((c : Thread nD τ).loc main_arg0)⟩, ⟨S4096x2048, m ((c : Thread nD τ).loc main_arg1)⟩]
    concatenates_S4096x1024_S4096x2048_S4096x3072_d1

/-- The region finds the activations: the narrowing of each half is the identity on the extended reals. -/
theorem V_act (c : Dev nD) : (V m c main_v2 : S4096x3072.Idx → EReal) = act m c := by
  dsimp only [Gen.V, Gen.hostOps0]; after_results; rfl

/-- The region finds the input gate's weights as given. -/
theorem V_wgt1 (c : Dev nD) : (V m c main_v3 : S2048x3072.Idx → EReal) = m ((c : Thread nD τ).loc main_arg3) := by
  dsimp only [Gen.V, Gen.hostOps0]; after_results; rfl

/-- The region finds the forget gate's weights as given. -/
theorem V_wgt2 (c : Dev nD) : (V m c main_v4 : S2048x3072.Idx → EReal) = m ((c : Thread nD τ).loc main_arg5) := by
  dsimp only [Gen.V, Gen.hostOps0]; after_results; rfl

/-- The region finds the cell gate's weights as given. -/
theorem V_wgt3 (c : Dev nD) : (V m c main_v5 : S2048x3072.Idx → EReal) = m ((c : Thread nD τ).loc main_arg7) := by
  dsimp only [Gen.V, Gen.hostOps0]; after_results; rfl

/-- The region finds the output gate's weights as given. -/
theorem V_wgt4 (c : Dev nD) : (V m c main_v6 : S2048x3072.Idx → EReal) = m ((c : Thread nD τ).loc main_arg9) := by
  dsimp only [Gen.V, Gen.hostOps0]; after_results; rfl

/-- The region finds the input gate's bias as one row: its column h is the bias of unit h. -/
theorem V_bias5 (c : Dev nD) (h : Fin 2048) :
    (V m c main_v7 : S1x2048.Idx → EReal) (ix2 0 h) = m ((c : Thread nD τ).loc main_arg4) (ix1 h) := by
  have e : (V m c main_v7 : S1x2048.Idx → EReal)
      = shapeCast S1x2048 (m ((c : Thread nD τ).loc main_arg4)) shapeCasts_S2048_S1x2048 := by
    dsimp only [Gen.V, Gen.hostOps0]; after_results; rfl
  rw [e]
  refine (shapeCast_addUnit_apply ![2048] _ _ (ix2 0 h)).trans (congrArg _ ?_)
  funext a; match a with | ⟨0, _⟩ => rfl

/-- The region finds the forget gate's bias as one row: its column h is the bias of unit h. -/
theorem V_bias6 (c : Dev nD) (h : Fin 2048) :
    (V m c main_v8 : S1x2048.Idx → EReal) (ix2 0 h) = m ((c : Thread nD τ).loc main_arg6) (ix1 h) := by
  have e : (V m c main_v8 : S1x2048.Idx → EReal)
      = shapeCast S1x2048 (m ((c : Thread nD τ).loc main_arg6)) shapeCasts_S2048_S1x2048 := by
    dsimp only [Gen.V, Gen.hostOps0]; after_results; rfl
  rw [e]
  refine (shapeCast_addUnit_apply ![2048] _ _ (ix2 0 h)).trans (congrArg _ ?_)
  funext a; match a with | ⟨0, _⟩ => rfl

/-- The region finds the cell gate's bias as one row: its column h is the bias of unit h. -/
theorem V_bias7 (c : Dev nD) (h : Fin 2048) :
    (V m c main_v9 : S1x2048.Idx → EReal) (ix2 0 h) = m ((c : Thread nD τ).loc main_arg8) (ix1 h) := by
  have e : (V m c main_v9 : S1x2048.Idx → EReal)
      = shapeCast S1x2048 (m ((c : Thread nD τ).loc main_arg8)) shapeCasts_S2048_S1x2048 := by
    dsimp only [Gen.V, Gen.hostOps0]; after_results; rfl
  rw [e]
  refine (shapeCast_addUnit_apply ![2048] _ _ (ix2 0 h)).trans (congrArg _ ?_)
  funext a; match a with | ⟨0, _⟩ => rfl

/-- The region finds the output gate's bias as one row: its column h is the bias of unit h. -/
theorem V_bias8 (c : Dev nD) (h : Fin 2048) :
    (V m c main_v10 : S1x2048.Idx → EReal) (ix2 0 h) = m ((c : Thread nD τ).loc main_arg10) (ix1 h) := by
  have e : (V m c main_v10 : S1x2048.Idx → EReal)
      = shapeCast S1x2048 (m ((c : Thread nD τ).loc main_arg10)) shapeCasts_S2048_S1x2048 := by
    dsimp only [Gen.V, Gen.hostOps0]; after_results; rfl
  rw [e]
  refine (shapeCast_addUnit_apply ![2048] _ _ (ix2 0 h)).trans (congrArg _ ?_)
  funext a; match a with | ⟨0, _⟩ => rfl

/-- Every window's block index at point t, in terms of t's three tile coordinates; decided over the 96 points. -/
theorem idx_facts : ∀ t : Fin cfg0.N,
    win0_0.index t (0 : Fin 2) = t.val / 24 ∧ win0_0.index t (1 : Fin 2) = t.val % 3
    ∧ win0_1.index t (0 : Fin 2) = t.val / 3 % 8 ∧ win0_1.index t (1 : Fin 2) = t.val % 3
    ∧ win0_2.index t (0 : Fin 2) = t.val / 3 % 8 ∧ win0_2.index t (1 : Fin 2) = t.val % 3
    ∧ win0_3.index t (0 : Fin 2) = t.val / 3 % 8 ∧ win0_3.index t (1 : Fin 2) = t.val % 3
    ∧ win0_4.index t (0 : Fin 2) = t.val / 3 % 8 ∧ win0_4.index t (1 : Fin 2) = t.val % 3
    ∧ win0_5.index t (0 : Fin 2) = 0 ∧ win0_5.index t (1 : Fin 2) = t.val / 3 % 8
    ∧ win0_6.index t (0 : Fin 2) = 0 ∧ win0_6.index t (1 : Fin 2) = t.val / 3 % 8
    ∧ win0_7.index t (0 : Fin 2) = 0 ∧ win0_7.index t (1 : Fin 2) = t.val / 3 % 8
    ∧ win0_8.index t (0 : Fin 2) = 0 ∧ win0_8.index t (1 : Fin 2) = t.val / 3 % 8
    ∧ win0_9.index t (0 : Fin 2) = t.val / 24 ∧ win0_9.index t (1 : Fin 2) = t.val / 3 % 8
    ∧ win0_10.index t (0 : Fin 2) = t.val / 24 ∧ win0_10.index t (1 : Fin 2) = t.val / 3 % 8
    ∧ win0_11.index t (0 : Fin 2) = t.val / 24 ∧ win0_11.index t (1 : Fin 2) = t.val / 3 % 8 :=
  (by decide +kernel : ∀ t : Fin grid0.N, _)

/-- The activation block at point t: entry (p, kk) is the activations' entry (bt·1024 + p, kt·1024 + kk). -/
theorem act_block (c : Dev nD) (t : Fin cfg0.N) (p kk : Fin 1024) (r : Fin 4096) (k : Fin 3072)
    (hr : r.val = t.val / 24 * 1024 + p.val) (hk : k.val = t.val % 3 * 1024 + kk.val) :
    (iblk m c 0 t : Vec Ideal S1024x1024 .bf16) (ix2 p kk) = act m c (ix2 r k) := by
  obtain ⟨e0, e1, -⟩ := idx_facts t
  rw [← V_act m c]
  show V m c main_v2 (((cfg0.win 0).blk t).view.emb (ix2 p kk)) = V m c main_v2 (ix2 r k)
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * kk.val = k.val; omega

/-- The input gate's weight block at point t: entry (q, kk) is the matrix's entry (ht·256 + q, kt·1024 + kk). -/
theorem wgt_block1 (c : Dev nD) (t : Fin cfg0.N) (q : Fin 256) (kk : Fin 1024) (h : Fin 2048) (k : Fin 3072)
    (hh : h.val = t.val / 3 % 8 * 256 + q.val) (hk : k.val = t.val % 3 * 1024 + kk.val) :
    (iblk m c 1 t : Vec Ideal S256x1024 .bf16) (ix2 q kk) = m ((c : Thread nD τ).loc main_arg3) (ix2 h k) := by
  obtain ⟨-, -, e0, e1, -⟩ := idx_facts t
  rw [← V_wgt1 m c]
  show V m c main_v3 (((cfg0.win 1).blk t).view.emb (ix2 q kk)) = V m c main_v3 (ix2 h k)
  refine congrArg _ (funext fun a => Fin.ext ?_)
  match a with
  | ⟨0, _⟩ => show win0_1.index t (0 : Fin 2) * 256 + 1 * q.val = h.val; omega
  | ⟨1, _⟩ => show win0_1.index t (1 : Fin 2) * 1024 + 1 * kk.val = k.val; omega

/-- The forget gate's weight block at point t: entry (q, kk) is the matrix's entry (ht·256 + q, kt·1024 + kk). -/
theorem wgt_block2 (c : Dev nD) (t : Fin cfg0.N) (q : Fin 256) (kk : Fin 1024) (h : Fin 2048) (k : Fin 3072)
    (hh : h.val = t.val / 3 % 8 * 256 + q.val) (hk : k.val = t.val % 3 * 1024 + kk.val) :
    (iblk m c 2 t : Vec Ideal S256x1024 .bf16) (ix2 q kk) = m ((c : Thread nD τ).loc main_arg5) (ix2 h k) := by
  obtain ⟨-, -, -, -, e0, e1, -⟩ := idx_facts t
  rw [← V_wgt2 m c]
  show V m c main_v4 (((cfg0.win 2).blk t).view.emb (ix2 q kk)) = V m c main_v4 (ix2 h k)
  refine congrArg _ (funext fun a => Fin.ext ?_)
  match a with
  | ⟨0, _⟩ => show win0_2.index t (0 : Fin 2) * 256 + 1 * q.val = h.val; omega
  | ⟨1, _⟩ => show win0_2.index t (1 : Fin 2) * 1024 + 1 * kk.val = k.val; omega

/-- The cell gate's weight block at point t: entry (q, kk) is the matrix's entry (ht·256 + q, kt·1024 + kk). -/
theorem wgt_block3 (c : Dev nD) (t : Fin cfg0.N) (q : Fin 256) (kk : Fin 1024) (h : Fin 2048) (k : Fin 3072)
    (hh : h.val = t.val / 3 % 8 * 256 + q.val) (hk : k.val = t.val % 3 * 1024 + kk.val) :
    (iblk m c 3 t : Vec Ideal S256x1024 .bf16) (ix2 q kk) = m ((c : Thread nD τ).loc main_arg7) (ix2 h k) := by
  obtain ⟨-, -, -, -, -, -, e0, e1, -⟩ := idx_facts t
  rw [← V_wgt3 m c]
  show V m c main_v5 (((cfg0.win 3).blk t).view.emb (ix2 q kk)) = V m c main_v5 (ix2 h k)
  refine congrArg _ (funext fun a => Fin.ext ?_)
  match a with
  | ⟨0, _⟩ => show win0_3.index t (0 : Fin 2) * 256 + 1 * q.val = h.val; omega
  | ⟨1, _⟩ => show win0_3.index t (1 : Fin 2) * 1024 + 1 * kk.val = k.val; omega

/-- The output gate's weight block at point t: entry (q, kk) is the matrix's entry (ht·256 + q, kt·1024 + kk). -/
theorem wgt_block4 (c : Dev nD) (t : Fin cfg0.N) (q : Fin 256) (kk : Fin 1024) (h : Fin 2048) (k : Fin 3072)
    (hh : h.val = t.val / 3 % 8 * 256 + q.val) (hk : k.val = t.val % 3 * 1024 + kk.val) :
    (iblk m c 4 t : Vec Ideal S256x1024 .bf16) (ix2 q kk) = m ((c : Thread nD τ).loc main_arg9) (ix2 h k) := by
  obtain ⟨-, -, -, -, -, -, -, -, e0, e1, -⟩ := idx_facts t
  rw [← V_wgt4 m c]
  show V m c main_v6 (((cfg0.win 4).blk t).view.emb (ix2 q kk)) = V m c main_v6 (ix2 h k)
  refine congrArg _ (funext fun a => Fin.ext ?_)
  match a with
  | ⟨0, _⟩ => show win0_4.index t (0 : Fin 2) * 256 + 1 * q.val = h.val; omega
  | ⟨1, _⟩ => show win0_4.index t (1 : Fin 2) * 1024 + 1 * kk.val = k.val; omega

/-- The input gate's bias block at point t: column q of the one row is the bias of unit ht·256 + q. -/
theorem bias_block5 (c : Dev nD) (t : Fin cfg0.N) (q : Fin 256) (h : Fin 2048) (hh : h.val = t.val / 3 % 8 * 256 + q.val) :
    (iblk m c 5 t : Vec Ideal S1x256 .f32) (ix2 0 q) = m ((c : Thread nD τ).loc main_arg4) (ix1 h) := by
  obtain ⟨-, -, -, -, -, -, -, -, -, -, e0, e1, -⟩ := idx_facts t
  rw [← V_bias5 m c h]
  show V m c main_v7 (((cfg0.win 5).blk t).view.emb (ix2 0 q)) = V m c main_v7 (ix2 0 h)
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * q.val = h.val; omega

/-- The forget gate's bias block at point t: column q of the one row is the bias of unit ht·256 + q. -/
theorem bias_block6 (c : Dev nD) (t : Fin cfg0.N) (q : Fin 256) (h : Fin 2048) (hh : h.val = t.val / 3 % 8 * 256 + q.val) :
    (iblk m c 6 t : Vec Ideal S1x256 .f32) (ix2 0 q) = m ((c : Thread nD τ).loc main_arg6) (ix1 h) := by
  obtain ⟨-, -, -, -, -, -, -, -, -, -, -, -, e0, e1, -⟩ := idx_facts t
  rw [← V_bias6 m c h]
  show V m c main_v8 (((cfg0.win 6).blk t).view.emb (ix2 0 q)) = V m c main_v8 (ix2 0 h)
  refine congrArg _ (funext fun a => Fin.ext ?_)
  match a with
  | ⟨0, _⟩ => show win0_6.index t (0 : Fin 2) * 1 + 1 * 0 = 0; omega
  | ⟨1, _⟩ => show win0_6.index t (1 : Fin 2) * 256 + 1 * q.val = h.val; omega

/-- The cell gate's bias block at point t: column q of the one row is the bias of unit ht·256 + q. -/
theorem bias_block7 (c : Dev nD) (t : Fin cfg0.N) (q : Fin 256) (h : Fin 2048) (hh : h.val = t.val / 3 % 8 * 256 + q.val) :
    (iblk m c 7 t : Vec Ideal S1x256 .f32) (ix2 0 q) = m ((c : Thread nD τ).loc main_arg8) (ix1 h) := by
  obtain ⟨-, -, -, -, -, -, -, -, -, -, -, -, -, -, e0, e1, -⟩ := idx_facts t
  rw [← V_bias7 m c h]
  show V m c main_v9 (((cfg0.win 7).blk t).view.emb (ix2 0 q)) = V m c main_v9 (ix2 0 h)
  refine congrArg _ (funext fun a => Fin.ext ?_)
  match a with
  | ⟨0, _⟩ => show win0_7.index t (0 : Fin 2) * 1 + 1 * 0 = 0; omega
  | ⟨1, _⟩ => show win0_7.index t (1 : Fin 2) * 256 + 1 * q.val = h.val; omega

/-- The output gate's bias block at point t: column q of the one row is the bias of unit ht·256 + q. -/
theorem bias_block8 (c : Dev nD) (t : Fin cfg0.N) (q : Fin 256) (h : Fin 2048) (hh : h.val = t.val / 3 % 8 * 256 + q.val) :
    (iblk m c 8 t : Vec Ideal S1x256 .f32) (ix2 0 q) = m ((c : Thread nD τ).loc main_arg10) (ix1 h) := by
  obtain ⟨-, -, -, -, -, -, -, -, -, -, -, -, -, -, -, -, e0, e1, -⟩ := idx_facts t
  rw [← V_bias8 m c h]
  show V m c main_v10 (((cfg0.win 8).blk t).view.emb (ix2 0 q)) = V m c main_v10 (ix2 0 h)
  refine congrArg _ (funext fun a => Fin.ext ?_)
  match a with
  | ⟨0, _⟩ => show win0_8.index t (0 : Fin 2) * 1 + 1 * 0 = 0; omega
  | ⟨1, _⟩ => show win0_8.index t (1 : Fin 2) * 256 + 1 * q.val = h.val; omega

/-- The previous-cell block at point t: entry (p, q) is c_prev's entry (bt·1024 + p, ht·256 + q). -/
theorem cprev_block (c : Dev nD) (t : Fin cfg0.N) (p : Fin 1024) (q : Fin 256) (r : Fin 4096) (h : Fin 2048)
    (hr : r.val = t.val / 24 * 1024 + p.val) (hh : h.val = t.val / 3 % 8 * 256 + q.val) :
    (iblk m c 9 t : Vec Ideal S1024x256 .f32) (ix2 p q) = m ((c : Thread nD τ).loc main_arg2) (ix2 r h) := by
  obtain ⟨-, -, -, -, -, -, -, -, -, -, -, -, -, -, -, -, -, -, e0, e1, -⟩ := idx_facts t
  rw [← V_main_arg2 m c]
  show V m c main_arg2 (((cfg0.win 9).blk t).view.emb (ix2 p q)) = V m c main_arg2 (ix2 r h)
  refine congrArg _ (funext fun a => Fin.ext ?_)
  match a with
  | ⟨0, _⟩ => show win0_9.index t (0 : Fin 2) * 1024 + 1 * p.val = r.val; omega
  | ⟨1, _⟩ => show win0_9.index t (1 : Fin 2) * 256 + 1 * q.val = h.val; omega

/-- Where entry (p, q) of the hidden-state block of point t lies in the result array. -/
theorem hidden_pos (t : Fin cfg0.N) (p : Fin 1024) (q : Fin 256) (r : Fin 4096) (h : Fin 2048)
    (hr : r.val = t.val / 24 * 1024 + p.val) (hh : h.val = t.val / 3 % 8 * 256 + q.val) :
    (((cfg0.win 10).blk t).view.emb (ix2 p q) : S4096x2048.Idx) = ix2 r h := by
  obtain ⟨-, -, -, -, -, -, -, -, -, -, -, -, -, -, -, -, -, -, -, -, e0, e1, -⟩ := idx_facts t
  refine funext fun a => Fin.ext ?_
  match a with
  | ⟨0, _⟩ => show win0_10.index t (0 : Fin 2) * 1024 + 1 * p.val = r.val; omega
  | ⟨1, _⟩ => show win0_10.index t (1 : Fin 2) * 256 + 1 * q.val = h.val; omega

/-- Where entry (p, q) of the cell-state block of point t lies in the result array. -/
theorem cell_pos (t : Fin cfg0.N) (p : Fin 1024) (q : Fin 256) (r : Fin 4096) (h : Fin 2048)
    (hr : r.val = t.val / 24 * 1024 + p.val) (hh : h.val = t.val / 3 % 8 * 256 + q.val) :
    (((cfg0.win 11).blk t).view.emb (ix2 p q) : S4096x2048.Idx) = ix2 r h := by
  obtain ⟨-, -, -, -, -, -, -, -, -, -, -, -, -, -, -, -, -, -, -, -, -, -, e0, e1⟩ := idx_facts t
  refine funext fun a => Fin.ext ?_
  match a with
  | ⟨0, _⟩ => show win0_11.index t (0 : Fin 2) * 1024 + 1 * p.val = r.val; omega
  | ⟨1, _⟩ => show win0_11.index t (1 : Fin 2) * 256 + 1 * q.val = h.val; omega

end Cert.KernelIdeal.Blocks

end
-- ==== Proof.KernelValue.lean ====
/-
  The kernel's two result arrays are the LSTM step of the argument arrays.

  At the last point of a run of three (contraction tile 2) each gate's accumulator holds zero plus the three block
  products of the run, in order; block product kt at (p, q) is the part of the gate's contraction sum over positions
  kt·1024 … kt·1024 + 1023, so the three together are the whole sum over 3072 positions, at row bt·1024 + p and unit
  ht·256 + q.  Adding the unit's bias gives the gate's pre-activation, and the stored blocks are the cell and hidden
  values of these.  Every entry of a result array lies in the block of exactly such a point, so the arrays after the
  run are the step's cell and hidden states.
-/
import proofs.«112567_j18210661335500_2_alg».proof.Proof.Accum
import proofs.«112567_j18210661335500_2_alg».proof.Proof.Blocks
import proofs.«112567_j18210661335500_2_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.LstmStep

variable (m : (ℓ : Loc nD τ sig) → Buf (Elt Ideal) ℓ) (ρ : Dev nD → PrngReg)

/-- The step's new hidden state, of the argument arrays. -/
def hiddenOf (c : Dev nD) : S4096x2048.Idx → EReal :=
  hiddenArr (Blocks.act m c) (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))
    (m ((c : Thread nD τ).loc main_arg9)) (m ((c : Thread nD τ).loc main_arg10))
    (m ((c : Thread nD τ).loc main_arg2))

/-- The step's new cell state, of the argument arrays. -/
def cellOf (c : Dev nD) : S4096x2048.Idx → EReal :=
  cellArr (Blocks.act m c) (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))
    (m ((c : Thread nD τ).loc main_arg2))

/-- At the last point of a run the input gate's accumulator plus its bias block is the gate's pre-activation at the
    entry's row and unit. -/
theorem gate1 (c : Dev nD) (t : Fin cfg0.N) (h1 : t.val % 3 = 2) (p : Fin 1024) (q : Fin 256)
    (r : Fin 4096) (h : Fin 2048) (hr : r.val = t.val / 24 * 1024 + p.val) (hh : h.val = t.val / 3 % 8 * 256 + q.val) :
    (outsAt0 m c t.val t.isLt).2.2.1 (ix2 p q) + (iblk m c 5 t : Vec Ideal S1x256 .f32) (ix2 0 q)
      = gate (Blocks.act m c) (m ((c : Thread nD τ).loc main_arg3)) (m ((c : Thread nD τ).loc main_arg4)) r h := by
  have hN : t.val < 96 := lt_of_lt_of_eq t.isLt (show cfg0.N = 96 from N_0)
  have e : (outsAt0 m c t.val t.isLt).2.2.1 (ix2 p q)
      = 0 + ∑ s ∈ Finset.range 3, Accum.addend1 m c (3 * (t.val / 3) + s) (ix2 p q) :=
    (Accum.total1 m c t (ix2 p q)).trans (by rw [h1])
  refine (congrArg₂ (· + ·) e (Blocks.bias_block5 m c t q h hh)).trans ?_
  unfold gate
  rw [← runs_sum (fun k => Blocks.act m c (ix2 r k) * m ((c : Thread nD τ).loc main_arg3) (ix2 h k))]
  refine congrArg (· + _) (congrArg (0 + ·) (Finset.sum_congr rfl fun s hs => ?_))
  have hs3 : s < 3 := Finset.mem_range.mp hs
  have hlt : 3 * (t.val / 3) + s < cfg0.N := lt_of_lt_of_eq (by omega) (show cfg0.N = 96 from N_0).symm
  unfold Accum.addend1 Arith.blockDot
  rw [dif_pos hlt, dif_pos hs3]
  refine Finset.sum_congr rfl fun kk _ => ?_
  exact congrArg₂ (· * ·)
    (Blocks.act_block m c ⟨3 * (t.val / 3) + s, hlt⟩ p kk r (TileSum.idx rfl ⟨s, hs3⟩ kk) (by dsimp only; omega)
      (by show s * 1024 + kk.val = _; dsimp only; omega))
    (Blocks.wgt_block1 m c ⟨3 * (t.val / 3) + s, hlt⟩ q kk h (TileSum.idx rfl ⟨s, hs3⟩ kk) (by dsimp only; omega)
      (by show s * 1024 + kk.val = _; dsimp only; omega))

/-- At the last point of a run the forget gate's accumulator plus its bias block is the gate's pre-activation at the
    entry's row and unit. -/
theorem gate2 (c : Dev nD) (t : Fin cfg0.N) (h1 : t.val % 3 = 2) (p : Fin 1024) (q : Fin 256)
    (r : Fin 4096) (h : Fin 2048) (hr : r.val = t.val / 24 * 1024 + p.val) (hh : h.val = t.val / 3 % 8 * 256 + q.val) :
    (outsAt0 m c t.val t.isLt).2.2.2.1 (ix2 p q) + (iblk m c 6 t : Vec Ideal S1x256 .f32) (ix2 0 q)
      = gate (Blocks.act m c) (m ((c : Thread nD τ).loc main_arg5)) (m ((c : Thread nD τ).loc main_arg6)) r h := by
  have hN : t.val < 96 := lt_of_lt_of_eq t.isLt (show cfg0.N = 96 from N_0)
  have e : (outsAt0 m c t.val t.isLt).2.2.2.1 (ix2 p q)
      = 0 + ∑ s ∈ Finset.range 3, Accum.addend2 m c (3 * (t.val / 3) + s) (ix2 p q) :=
    (Accum.total2 m c t (ix2 p q)).trans (by rw [h1])
  refine (congrArg₂ (· + ·) e (Blocks.bias_block6 m c t q h hh)).trans ?_
  unfold gate
  rw [← runs_sum (fun k => Blocks.act m c (ix2 r k) * m ((c : Thread nD τ).loc main_arg5) (ix2 h k))]
  refine congrArg (· + _) (congrArg (0 + ·) (Finset.sum_congr rfl fun s hs => ?_))
  have hs3 : s < 3 := Finset.mem_range.mp hs
  have hlt : 3 * (t.val / 3) + s < cfg0.N := lt_of_lt_of_eq (by omega) (show cfg0.N = 96 from N_0).symm
  unfold Accum.addend2 Arith.blockDot
  rw [dif_pos hlt, dif_pos hs3]
  refine Finset.sum_congr rfl fun kk _ => ?_
  exact congrArg₂ (· * ·)
    (Blocks.act_block m c ⟨3 * (t.val / 3) + s, hlt⟩ p kk r (TileSum.idx rfl ⟨s, hs3⟩ kk) (by dsimp only; omega)
      (by show s * 1024 + kk.val = _; dsimp only; omega))
    (Blocks.wgt_block2 m c ⟨3 * (t.val / 3) + s, hlt⟩ q kk h (TileSum.idx rfl ⟨s, hs3⟩ kk) (by dsimp only; omega)
      (by show s * 1024 + kk.val = _; dsimp only; omega))

/-- At the last point of a run the cell gate's accumulator plus its bias block is the gate's pre-activation at the
    entry's row and unit. -/
theorem gate3 (c : Dev nD) (t : Fin cfg0.N) (h1 : t.val % 3 = 2) (p : Fin 1024) (q : Fin 256)
    (r : Fin 4096) (h : Fin 2048) (hr : r.val = t.val / 24 * 1024 + p.val) (hh : h.val = t.val / 3 % 8 * 256 + q.val) :
    (outsAt0 m c t.val t.isLt).2.2.2.2.1 (ix2 p q) + (iblk m c 7 t : Vec Ideal S1x256 .f32) (ix2 0 q)
      = gate (Blocks.act m c) (m ((c : Thread nD τ).loc main_arg7)) (m ((c : Thread nD τ).loc main_arg8)) r h := by
  have hN : t.val < 96 := lt_of_lt_of_eq t.isLt (show cfg0.N = 96 from N_0)
  have e : (outsAt0 m c t.val t.isLt).2.2.2.2.1 (ix2 p q)
      = 0 + ∑ s ∈ Finset.range 3, Accum.addend3 m c (3 * (t.val / 3) + s) (ix2 p q) :=
    (Accum.total3 m c t (ix2 p q)).trans (by rw [h1])
  refine (congrArg₂ (· + ·) e (Blocks.bias_block7 m c t q h hh)).trans ?_
  unfold gate
  rw [← runs_sum (fun k => Blocks.act m c (ix2 r k) * m ((c : Thread nD τ).loc main_arg7) (ix2 h k))]
  refine congrArg (· + _) (congrArg (0 + ·) (Finset.sum_congr rfl fun s hs => ?_))
  have hs3 : s < 3 := Finset.mem_range.mp hs
  have hlt : 3 * (t.val / 3) + s < cfg0.N := lt_of_lt_of_eq (by omega) (show cfg0.N = 96 from N_0).symm
  unfold Accum.addend3 Arith.blockDot
  rw [dif_pos hlt, dif_pos hs3]
  refine Finset.sum_congr rfl fun kk _ => ?_
  exact congrArg₂ (· * ·)
    (Blocks.act_block m c ⟨3 * (t.val / 3) + s, hlt⟩ p kk r (TileSum.idx rfl ⟨s, hs3⟩ kk) (by dsimp only; omega)
      (by show s * 1024 + kk.val = _; dsimp only; omega))
    (Blocks.wgt_block3 m c ⟨3 * (t.val / 3) + s, hlt⟩ q kk h (TileSum.idx rfl ⟨s, hs3⟩ kk) (by dsimp only; omega)
      (by show s * 1024 + kk.val = _; dsimp only; omega))

/-- At the last point of a run the output gate's accumulator plus its bias block is the gate's pre-activation at the
    entry's row and unit. -/
theorem gate4 (c : Dev nD) (t : Fin cfg0.N) (h1 : t.val % 3 = 2) (p : Fin 1024) (q : Fin 256)
    (r : Fin 4096) (h : Fin 2048) (hr : r.val = t.val / 24 * 1024 + p.val) (hh : h.val = t.val / 3 % 8 * 256 + q.val) :
    (outsAt0 m c t.val t.isLt).2.2.2.2.2 (ix2 p q) + (iblk m c 8 t : Vec Ideal S1x256 .f32) (ix2 0 q)
      = gate (Blocks.act m c) (m ((c : Thread nD τ).loc main_arg9)) (m ((c : Thread nD τ).loc main_arg10)) r h := by
  have hN : t.val < 96 := lt_of_lt_of_eq t.isLt (show cfg0.N = 96 from N_0)
  have e : (outsAt0 m c t.val t.isLt).2.2.2.2.2 (ix2 p q)
      = 0 + ∑ s ∈ Finset.range 3, Accum.addend4 m c (3 * (t.val / 3) + s) (ix2 p q) :=
    (Accum.total4 m c t (ix2 p q)).trans (by rw [h1])
  refine (congrArg₂ (· + ·) e (Blocks.bias_block8 m c t q h hh)).trans ?_
  unfold gate
  rw [← runs_sum (fun k => Blocks.act m c (ix2 r k) * m ((c : Thread nD τ).loc main_arg9) (ix2 h k))]
  refine congrArg (· + _) (congrArg (0 + ·) (Finset.sum_congr rfl fun s hs => ?_))
  have hs3 : s < 3 := Finset.mem_range.mp hs
  have hlt : 3 * (t.val / 3) + s < cfg0.N := lt_of_lt_of_eq (by omega) (show cfg0.N = 96 from N_0).symm
  unfold Accum.addend4 Arith.blockDot
  rw [dif_pos hlt, dif_pos hs3]
  refine Finset.sum_congr rfl fun kk _ => ?_
  exact congrArg₂ (· * ·)
    (Blocks.act_block m c ⟨3 * (t.val / 3) + s, hlt⟩ p kk r (TileSum.idx rfl ⟨s, hs3⟩ kk) (by dsimp only; omega)
      (by show s * 1024 + kk.val = _; dsimp only; omega))
    (Blocks.wgt_block4 m c ⟨3 * (t.val / 3) + s, hlt⟩ q kk h (TileSum.idx rfl ⟨s, hs3⟩ kk) (by dsimp only; omega)
      (by show s * 1024 + kk.val = _; dsimp only; omega))

/-- What a flushing point writes back to the hidden-state array is its block of the step's hidden state. -/
theorem flushed_hidden (c : Dev nD) (t : Fin cfg0.N) (hf : (cfg0.win 10).flush t = true) :
    (dats m 0 c).flushed 10 t = ((cfg0.win 10).blk t).view.read (Elt Ideal) (hiddenOf m c) := by
  have h1 : t.val % 3 = 2 := (flush0_10 t).mp hf
  have h0 : ¬t.val % 3 = 0 := by omega
  have hN : t.val < 96 := lt_of_lt_of_eq t.isLt (show cfg0.N = 96 from N_0)
  have H := (Cases.last_point (F := Ideal) _ _ _ _ _ _ _ _ _ _ _ _ _ _ _ _ _ _ _ _ _ _ _ _ _ _ _ _ _ _ _ _ _ _ _ _ _ _ _ _ _ _ _ _ _ _ _ _ _ _
    (outsAt0 m c t.val t.isLt) (outsAt0_C m c t h0 h1)).1
  rw [Value.flushed10 m c t]
  show _ = fun j : S1024x256.Idx => hiddenOf m c (((cfg0.win 10).blk t).view.emb j)
  funext j
  obtain ⟨p, q, rfl⟩ : ∃ (p : Fin 1024) (q : Fin 256), j = ix2 p q := ⟨j 0, j 1, eq_ix2 j⟩
  have hr : (⟨t.val / 24 * 1024 + p.val, by omega⟩ : Fin 4096).val = t.val / 24 * 1024 + p.val := rfl
  have hh : (⟨t.val / 3 % 8 * 256 + q.val, by omega⟩ : Fin 2048).val = t.val / 3 % 8 * 256 + q.val := rfl
  refine (congrFun H (ix2 p q)).trans ?_
  rw [Blocks.hidden_pos t p q _ _ hr hh]
  exact Arith.hidden_entry _ _ _ _ _ _ _ _ _ p q _ _ _ _ _ (gate1 m c t h1 p q _ _ hr hh) (gate2 m c t h1 p q _ _ hr hh) (gate3 m c t h1 p q _ _ hr hh) (gate4 m c t h1 p q _ _ hr hh)
    (Blocks.cprev_block m c t p q _ _ hr hh)

/-- What a flushing point writes back to the cell-state array is its block of the step's cell state. -/
theorem flushed_cell (c : Dev nD) (t : Fin cfg0.N) (hf : (cfg0.win 11).flush t = true) :
    (dats m 0 c).flushed 11 t = ((cfg0.win 11).blk t).view.read (Elt Ideal) (cellOf m c) := by
  have h1 : t.val % 3 = 2 := (flush0_11 t).mp hf
  have h0 : ¬t.val % 3 = 0 := by omega
  have hN : t.val < 96 := lt_of_lt_of_eq t.isLt (show cfg0.N = 96 from N_0)
  have H := (Cases.last_point (F := Ideal) _ _ _ _ _ _ _ _ _ _ _ _ _ _ _ _ _ _ _ _ _ _ _ _ _ _ _ _ _ _ _ _ _ _ _ _ _ _ _ _ _ _ _ _ _ _ _ _ _ _
    (outsAt0 m c t.val t.isLt) (outsAt0_C m c t h0 h1)).2
  rw [Value.flushed11 m c t]
  show _ = fun j : S1024x256.Idx => cellOf m c (((cfg0.win 11).blk t).view.emb j)
  funext j
  obtain ⟨p, q, rfl⟩ : ∃ (p : Fin 1024) (q : Fin 256), j = ix2 p q := ⟨j 0, j 1, eq_ix2 j⟩
  have hr : (⟨t.val / 24 * 1024 + p.val, by omega⟩ : Fin 4096).val = t.val / 24 * 1024 + p.val := rfl
  have hh : (⟨t.val / 3 % 8 * 256 + q.val, by omega⟩ : Fin 2048).val = t.val / 3 % 8 * 256 + q.val := rfl
  refine (congrFun H (ix2 p q)).trans ?_
  rw [Blocks.cell_pos t p q _ _ hr hh]
  exact Arith.cell_entry _ _ _ _ _ _ _ p q _ _ _ _ (gate1 m c t h1 p q _ _ hr hh) (gate2 m c t h1 p q _ _ hr hh) (gate3 m c t h1 p q _ _ hr hh)
    (Blocks.cprev_block m c t p q _ _ hr hh)

/-- After the run the hidden-state array is the step's hidden state: entry (r, h) lies in the block of the last point of
    the run with batch tile r / 1024 and hidden tile h / 256. -/
theorem final_hidden (c : Dev nD) : (dats m 0 c).arrAt 10 cfg0.N = hiddenOf m c :=
  (dats m 0 c).arrAt_eq_of_cover 10 (hiddenOf m c) (flushed_hidden m c) fun i => by
    have hi0 : (i 0).val < 4096 := (i 0).isLt
    have hi1 : (i 1).val < 2048 := (i 1).isLt
    have hlt : ((i 0).val / 1024 * 8 + (i 1).val / 256) * 3 + 2 < cfg0.N :=
      lt_of_lt_of_eq (by omega) (show cfg0.N = 96 from N_0).symm
    refine ⟨⟨((i 0).val / 1024 * 8 + (i 1).val / 256) * 3 + 2, hlt⟩, (flush0_10 _).mpr (by dsimp only; omega), ?_⟩
    obtain ⟨-, -, -, -, -, -, -, -, -, -, -, -, -, -, -, -, -, -, -, -, e0, e1, -⟩ := Blocks.idx_facts ⟨((i 0).val / 1024 * 8 + (i 1).val / 256) * 3 + 2, hlt⟩
    dsimp only at e0 e1
    show i ∈ ((View.whole main_v11_0).slice (win0_10.rect ⟨((i 0).val / 1024 * 8 + (i 1).val / 256) * 3 + 2, hlt⟩)).set
    rw [View.set_slice_whole, Rect.mem_set_unit]
    intro a
    match a with
    | ⟨0, _⟩ =>
      show win0_10.index ⟨((i 0).val / 1024 * 8 + (i 1).val / 256) * 3 + 2, hlt⟩ (0 : Fin 2) * 1024 ≤ (i 0).val
        ∧ (i 0).val < win0_10.index ⟨((i 0).val / 1024 * 8 + (i 1).val / 256) * 3 + 2, hlt⟩ (0 : Fin 2) * 1024 + 1024
      omega
    | ⟨1, _⟩ =>
      show win0_10.index ⟨((i 0).val / 1024 * 8 + (i 1).val / 256) * 3 + 2, hlt⟩ (1 : Fin 2) * 256 ≤ (i 1).val
        ∧ (i 1).val < win0_10.index ⟨((i 0).val / 1024 * 8 + (i 1).val / 256) * 3 + 2, hlt⟩ (1 : Fin 2) * 256 + 256
      omega

/-- After the run the cell-state array is the step's cell state. -/
theorem final_cell (c : Dev nD) : (dats m 0 c).arrAt 11 cfg0.N = cellOf m c :=
  (dats m 0 c).arrAt_eq_of_cover 11 (cellOf m c) (flushed_cell m c) fun i => by
    have hi0 : (i 0).val < 4096 := (i 0).isLt
    have hi1 : (i 1).val < 2048 := (i 1).isLt
    have hlt : ((i 0).val / 1024 * 8 + (i 1).val / 256) * 3 + 2 < cfg0.N :=
      lt_of_lt_of_eq (by omega) (show cfg0.N = 96 from N_0).symm
    refine ⟨⟨((i 0).val / 1024 * 8 + (i 1).val / 256) * 3 + 2, hlt⟩, (flush0_11 _).mpr (by dsimp only; omega), ?_⟩
    obtain ⟨-, -, -, -, -, -, -, -, -, -, -, -, -, -, -, -, -, -, -, -, -, -, e0, e1⟩ := Blocks.idx_facts ⟨((i 0).val / 1024 * 8 + (i 1).val / 256) * 3 + 2, hlt⟩
    dsimp only at e0 e1
    show i ∈ ((View.whole main_v11_1).slice (win0_11.rect ⟨((i 0).val / 1024 * 8 + (i 1).val / 256) * 3 + 2, hlt⟩)).set
    rw [View.set_slice_whole, Rect.mem_set_unit]
    intro a
    match a with
    | ⟨0, _⟩ =>
      show win0_11.index ⟨((i 0).val / 1024 * 8 + (i 1).val / 256) * 3 + 2, hlt⟩ (0 : Fin 2) * 1024 ≤ (i 0).val
        ∧ (i 0).val < win0_11.index ⟨((i 0).val / 1024 * 8 + (i 1).val / 256) * 3 + 2, hlt⟩ (0 : Fin 2) * 1024 + 1024
      omega
    | ⟨1, _⟩ =>
      show win0_11.index ⟨((i 0).val / 1024 * 8 + (i 1).val / 256) * 3 + 2, hlt⟩ (1 : Fin 2) * 256 ≤ (i 1).val
        ∧ (i 1).val < win0_11.index ⟨((i 0).val / 1024 * 8 + (i 1).val / 256) * 3 + 2, hlt⟩ (1 : Fin 2) * 256 + 256
      omega

/-- The kernel's run: the two result arrays end at the step's hidden and cell states, the arguments unchanged. -/
theorem run : θ_run defs (onTc (τ := τ) (main (F := Ideal))) ⟨m, fun _ => 0, ρ⟩ fun r => ∀ c : Dev nD,
      r.2.mem ((c : Thread nD τ).loc main_v11_0) = hiddenOf m c
      ∧ r.2.mem ((c : Thread nD τ).loc main_v11_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_hidden m c), (h c).2.1.trans (final_cell m c), (h c).2.2⟩)
    (Value.run_blocks m ρ)

end Cert.KernelIdeal.Result

end
-- ==== Proof.LibLogistic.lean ====
/-
  A sigmoid spelt out on the host — negate, exponential, add one, divide into one, both ones the float 1.0 — is the
  logistic function on the extended reals.

  The pattern 0x3F800000 has sign 0, exponent field 127 and fraction field 0, so it denotes
  (2^23 + 0) · 2^(127 − 127 − 23) = 1. The logistic function is by definition the quotient 1 / (1 + e^(−x)) taken
  with the extended reals' division (at −∞ the denominator is +∞ and the value 0; at +∞ the denominator is 1 and the
  value 1), so once both literals read as 1 the spelt expression IS the logistic function, with no case split.
-/
import Idealize.ShloMosaic.PureOps.Ideal
import Idealize.ShloMosaic.PureOps.Ideal.Laws

noncomputable section

namespace Cert.LibLogistic

open Idealize.ShloMosaic

/-- The float pattern of 1.0 denotes the extended real 1: (2^23 + 0) · 2^(127 − 127 − 23). -/
theorem one_f32 : Ideal.ofBits .f32 0x3F800000#32 = 1 := by
  simp [Ideal.ofBits, Ideal.ieee]
  rw [← EReal.coe_mul]
  norm_num

/-- 1 / (1 + e^(−x)), both ones spelt by the pattern of 1.0, is the logistic function of x. -/
theorem sigmoid_spelt (x : EReal) :
    Ideal.div (Ideal.ofBits .f32 0x3F800000#32) (Ideal.ofBits .f32 0x3F800000#32 + Ideal.exp (-x)) = Ideal.logistic x := by
  rw [one_f32]; rfl

end Cert.LibLogistic

end
-- ==== Proof.RefValue.lean ====
/-
  The reference computes the same LSTM step.

  The reference stacks the four weight matrices into one 8192 × 3072 matrix and the four biases into one vector of 8192,
  forms [x | h_prev] · (stacked weights)ᵀ + stacked bias, and cuts the result into four column ranges of 2048.  Row
  g·2048 + h of the stacked matrix is row h of gate g's matrix, and entry g·2048 + h of the stacked bias is gate g's bias
  of unit h, so column range g at (r, h) is gate g's pre-activation.  Its sigmoid is spelt 1 / (1 + e^(−x)) with both ones
  the float 1.0, which is the logistic function on the extended reals.
-/
import proofs.«112567_j18210661335500_2_alg».proof.Proof.Gen.ReferenceIdeal.Read
import proofs.«112567_j18210661335500_2_alg».proof.Proof.Spec
import proofs.«112567_j18210661335500_2_alg».proof.Proof.LibLogistic
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.LstmStep

variable (x0 : (⟨S4096x1024, .f32⟩ : BufTy).Contents (Elt Ideal)) (x1 x2 : (⟨S4096x2048, .f32⟩ : BufTy).Contents (Elt Ideal))
  (x3 : (⟨S2048x3072, .f32⟩ : BufTy).Contents (Elt Ideal)) (x4 : (⟨S2048, .f32⟩ : BufTy).Contents (Elt Ideal))
  (x5 : (⟨S2048x3072, .f32⟩ : BufTy).Contents (Elt Ideal)) (x6 : (⟨S2048, .f32⟩ : BufTy).Contents (Elt Ideal))
  (x7 : (⟨S2048x3072, .f32⟩ : BufTy).Contents (Elt Ideal)) (x8 : (⟨S2048, .f32⟩ : BufTy).Contents (Elt Ideal))
  (x9 : (⟨S2048x3072, .f32⟩ : BufTy).Contents (Elt Ideal)) (x10 : (⟨S2048, .f32⟩ : BufTy).Contents (Elt Ideal))

/-- Column range 0 of the product plus bias, at (r, h), is the input gate's pre-activation. -/
theorem pre0 (r : Fin 4096) (h : Fin 2048) :
    val_main_v8 (F := Ideal) x0 x1 x3 x4 x5 x6 x7 x8 x9 x10 (ix2 r h) = gate (val_main_v0 (F := Ideal) x0 x1) x3 x4 r h := by
  rw [val_main_v8_apply, val_main_v7_apply, val_main_v4_apply, val_main_v6_apply, val_main_v5_apply]
  unfold gate
  refine congrArg₂ (· + ·) (Finset.sum_congr rfl fun k _ => congrArg₂ (· * ·) (congrArg _ ?_) ?_) ?_
  · funext a; match a with | ⟨0, _⟩ => rfl | ⟨1, _⟩ => rfl
  · rw [val_main_v3_apply]
    unfold val_main_v1
    refine concatenate_apply_piece (t := S8192x3072) 0 _ _ _ 0 ?_ S2048x3072 x3 ?_ rfl 0 ?_ (ix2 h k) ?_ ?_
    · exact (by decide : 0 < 4)
    · rfl
    · rfl
    · intro b hb
      match b, hb with
      | ⟨0, _⟩, hb => exact absurd rfl hb
      | ⟨1, _⟩, _ => rfl
    · exact Nat.zero_add _
  · unfold val_main_v2
    refine concatenate_apply_piece (t := S8192) 0 _ _ _ 0 ?_ S2048 x4 ?_ rfl 0 ?_ (ix1 h) ?_ ?_
    · exact (by decide : 0 < 4)
    · rfl
    · rfl
    · intro b hb
      match b, hb with
      | ⟨0, _⟩, hb => exact absurd rfl hb
    · exact Nat.zero_add _

/-- Column range 1 of the product plus bias, at (r, h), is the forget gate's pre-activation. -/
theorem pre1 (r : Fin 4096) (h : Fin 2048) :
    val_main_v9 (F := Ideal) x0 x1 x3 x4 x5 x6 x7 x8 x9 x10 (ix2 r h) = gate (val_main_v0 (F := Ideal) x0 x1) x5 x6 r h := by
  rw [val_main_v9_apply, val_main_v7_apply, val_main_v4_apply, val_main_v6_apply, val_main_v5_apply]
  unfold gate
  refine congrArg₂ (· + ·) (Finset.sum_congr rfl fun k _ => congrArg₂ (· * ·) (congrArg _ ?_) ?_) ?_
  · funext a; match a with | ⟨0, _⟩ => rfl | ⟨1, _⟩ => rfl
  · rw [val_main_v3_apply]
    unfold val_main_v1
    refine concatenate_apply_piece (t := S8192x3072) 0 _ _ _ 1 ?_ S2048x3072 x5 ?_ rfl 2048 ?_ (ix2 h k) ?_ ?_
    · exact (by decide : 1 < 4)
    · rfl
    · rfl
    · intro b hb
      match b, hb with
      | ⟨0, _⟩, hb => exact absurd rfl hb
      | ⟨1, _⟩, _ => rfl
    · rfl
  · unfold val_main_v2
    refine concatenate_apply_piece (t := S8192) 0 _ _ _ 1 ?_ S2048 x6 ?_ rfl 2048 ?_ (ix1 h) ?_ ?_
    · exact (by decide : 1 < 4)
    · rfl
    · rfl
    · intro b hb
      match b, hb with
      | ⟨0, _⟩, hb => exact absurd rfl hb
    · rfl

/-- Column range 2 of the product plus bias, at (r, h), is the cell gate's pre-activation. -/
theorem pre2 (r : Fin 4096) (h : Fin 2048) :
    val_main_v10 (F := Ideal) x0 x1 x3 x4 x5 x6 x7 x8 x9 x10 (ix2 r h) = gate (val_main_v0 (F := Ideal) x0 x1) x7 x8 r h := by
  rw [val_main_v10_apply, val_main_v7_apply, val_main_v4_apply, val_main_v6_apply, val_main_v5_apply]
  unfold gate
  refine congrArg₂ (· + ·) (Finset.sum_congr rfl fun k _ => congrArg₂ (· * ·) (congrArg _ ?_) ?_) ?_
  · funext a; match a with | ⟨0, _⟩ => rfl | ⟨1, _⟩ => rfl
  · rw [val_main_v3_apply]
    unfold val_main_v1
    refine concatenate_apply_piece (t := S8192x3072) 0 _ _ _ 2 ?_ S2048x3072 x7 ?_ rfl 4096 ?_ (ix2 h k) ?_ ?_
    · exact (by decide : 2 < 4)
    · rfl
    · rfl
    · intro b hb
      match b, hb with
      | ⟨0, _⟩, hb => exact absurd rfl hb
      | ⟨1, _⟩, _ => rfl
    · rfl
  · unfold val_main_v2
    refine concatenate_apply_piece (t := S8192) 0 _ _ _ 2 ?_ S2048 x8 ?_ rfl 4096 ?_ (ix1 h) ?_ ?_
    · exact (by decide : 2 < 4)
    · rfl
    · rfl
    · intro b hb
      match b, hb with
      | ⟨0, _⟩, hb => exact absurd rfl hb
    · rfl

/-- Column range 3 of the product plus bias, at (r, h), is the output gate's pre-activation. -/
theorem pre3 (r : Fin 4096) (h : Fin 2048) :
    val_main_v11 (F := Ideal) x0 x1 x3 x4 x5 x6 x7 x8 x9 x10 (ix2 r h) = gate (val_main_v0 (F := Ideal) x0 x1) x9 x10 r h := by
  rw [val_main_v11_apply, val_main_v7_apply, val_main_v4_apply, val_main_v6_apply, val_main_v5_apply]
  unfold gate
  refine congrArg₂ (· + ·) (Finset.sum_congr rfl fun k _ => congrArg₂ (· * ·) (congrArg _ ?_) ?_) ?_
  · funext a; match a with | ⟨0, _⟩ => rfl | ⟨1, _⟩ => rfl
  · rw [val_main_v3_apply]
    unfold val_main_v1
    refine concatenate_apply_piece (t := S8192x3072) 0 _ _ _ 3 ?_ S2048x3072 x9 ?_ rfl 6144 ?_ (ix2 h k) ?_ ?_
    · exact (by decide : 3 < 4)
    · rfl
    · rfl
    · intro b hb
      match b, hb with
      | ⟨0, _⟩, hb => exact absurd rfl hb
      | ⟨1, _⟩, _ => rfl
    · rfl
  · unfold val_main_v2
    refine concatenate_apply_piece (t := S8192) 0 _ _ _ 3 ?_ S2048 x10 ?_ rfl 6144 ?_ (ix1 h) ?_ ?_
    · exact (by decide : 3 < 4)
    · rfl
    · rfl
    · intro b hb
      match b, hb with
      | ⟨0, _⟩, hb => exact absurd rfl hb
    · rfl

/-- The spelt sigmoid of column range 0 is the logistic function of it. -/
theorem sigm_i (j : S4096x2048.Idx) :
    val_main_v17 (F := Ideal) x0 x1 x3 x4 x5 x6 x7 x8 x9 x10 j = Ideal.logistic (val_main_v8 (F := Ideal) x0 x1 x3 x4 x5 x6 x7 x8 x9 x10 j) := by
  rw [val_main_v17_apply, val_main_v16_apply, val_main_cst_0_apply, val_main_v15_apply, val_main_v14_apply,
    val_main_cst_apply, val_main_v13_apply, val_main_v12_apply]
  exact Cert.LibLogistic.sigmoid_spelt _

/-- The spelt sigmoid of column range 1 is the logistic function of it. -/
theorem sigm_f (j : S4096x2048.Idx) :
    val_main_v23 (F := Ideal) x0 x1 x3 x4 x5 x6 x7 x8 x9 x10 j = Ideal.logistic (val_main_v9 (F := Ideal) x0 x1 x3 x4 x5 x6 x7 x8 x9 x10 j) := by
  rw [val_main_v23_apply, val_main_v22_apply, val_main_cst_2_apply, val_main_v21_apply, val_main_v20_apply,
    val_main_cst_1_apply, val_main_v19_apply, val_main_v18_apply]
  exact Cert.LibLogistic.sigmoid_spelt _

/-- The spelt sigmoid of column range 3 is the logistic function of it. -/
theorem sigm_o (j : S4096x2048.Idx) :
    val_main_v30 (F := Ideal) x0 x1 x3 x4 x5 x6 x7 x8 x9 x10 j = Ideal.logistic (val_main_v11 (F := Ideal) x0 x1 x3 x4 x5 x6 x7 x8 x9 x10 j) := by
  rw [val_main_v30_apply, val_main_v29_apply, val_main_cst_4_apply, val_main_v28_apply, val_main_v27_apply,
    val_main_cst_3_apply, val_main_v26_apply, val_main_v25_apply]
  exact Cert.LibLogistic.sigmoid_spelt _

/-- The reference's second result is the step's new cell state. -/
theorem cell_eq : val_main_v33 (F := Ideal) x0 x1 x2 x3 x4 x5 x6 x7 x8 x9 x10 = cellArr (val_main_v0 (F := Ideal) x0 x1) x3 x4 x5 x6 x7 x8 x2 := by
  funext j
  obtain ⟨r, h, rfl⟩ : ∃ (r : Fin 4096) (h : Fin 2048), j = ix2 r h := ⟨j 0, j 1, eq_ix2 j⟩
  rw [val_main_v33_apply, val_main_v31_apply, val_main_v32_apply, val_main_v24_apply, sigm_i, sigm_f, pre0, pre1, pre2]
  rfl

/-- The reference's first result is the step's new hidden state. -/
theorem hidden_eq : val_main_v35 (F := Ideal) x0 x1 x2 x3 x4 x5 x6 x7 x8 x9 x10
    = hiddenArr (val_main_v0 (F := Ideal) x0 x1) x3 x4 x5 x6 x7 x8 x9 x10 x2 := by
  funext j
  have ec := congrFun (cell_eq x0 x1 x2 x3 x4 x5 x6 x7 x8 x9 x10) j
  obtain ⟨r, h, rfl⟩ : ∃ (r : Fin 4096) (h : Fin 2048), j = ix2 r h := ⟨j 0, j 1, eq_ix2 j⟩
  rw [val_main_v35_apply, val_main_v34_apply, ec, sigm_o, pre3]
  rfl

end Cert.ReferenceIdeal.RefValue

end
-- ==== Proof.lean ====
/-
  One LSTM step: the kernel against the reference, on the extended reals.

  The kernel walks a 4 × 8 × 3 grid (batch tile, hidden tile, contraction tile).  For each batch and hidden tile it
  accumulates, over the three contraction tiles, the four gates' products of the activations [x | h_prev] with the gates'
  weight rows, and at the last contraction tile adds the biases and forms the new cell and hidden states.  The reference
  stacks the four gates into one product over all 3072 contraction positions and cuts the result into the four gates.
  On the extended reals the narrowing of the kernel's operands is the identity, a sum over 3072 positions is the sum of
  its three runs of 1024 (commutativity and associativity only), the kernel's logistic function is the reference's spelt
  1 / (1 + e^(−x)), and both sides are the same function of the arguments; finiteness of the inputs is not used.  The
  idealization rewrote nothing, so the conjunct that says it is sanctioned is trivial.
-/
import proofs.«112567_j18210661335500_2_alg».proof.Defs
import proofs.«112567_j18210661335500_2_alg».proof.Proof.Gen.Kernel
import proofs.«112567_j18210661335500_2_alg».proof.Proof.Gen.Kernel.Frame
import proofs.«112567_j18210661335500_2_alg».proof.Proof.Gen.KernelIdeal
import proofs.«112567_j18210661335500_2_alg».proof.Proof.Gen.KernelIdeal.Frame
import proofs.«112567_j18210661335500_2_alg».proof.Proof.Gen.KernelIdeal.Value
import proofs.«112567_j18210661335500_2_alg».proof.Proof.Gen.ReferenceIdeal
import proofs.«112567_j18210661335500_2_alg».proof.Proof.Gen.ReferenceIdeal.Run
import proofs.«112567_j18210661335500_2_alg».proof.Proof.Gen.ReferenceIdeal.Read
import proofs.«112567_j18210661335500_2_alg».proof.Proof.Gen.Pre_finite_inputs
import proofs.«112567_j18210661335500_2_alg».proof.Proof.KernelValue
import proofs.«112567_j18210661335500_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- The idealized kernel runs and leaves its arguments as they were. -/
theorem frame_kernelIdeal : Cert.frame_KernelIdeal := fun m ρ _ => Cert.KernelIdeal.Gen.frame m ρ

/-- The reference runs and leaves its arguments as they were: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From arguments that agree, the kernel's two result arrays and the reference's two results are the step's hidden and
    cell states. -/
theorem algebraic : Cert.algebraic_KernelIdeal_ReferenceIdeal := by
  intro m ρ m' ρ' _ hagree
  refine ⟨fun c => Cert.KernelIdeal.Result.hiddenOf m c, fun c => Cert.KernelIdeal.Result.cellOf m c,
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v35_eq, Cert.ReferenceIdeal.RefValue.hidden_eq, a0, a1, a2, a3, a4, a5, a6, a7, a8, a9, a10]
    rfl
  · obtain ⟨a0, a1, a2, a3, a4, a5, a6, a7, a8, a9, a10⟩ := hagree c
    refine (Cert.ReferenceIdeal.Read.val_main_v33_eq (F := Ideal) _ _ _ _ _ _ _ _ _ _ _).trans ?_
    rw [Cert.ReferenceIdeal.RefValue.cell_eq, a0, a1, a2, a3, a4, a5, a6, a7, a8]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
